-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S10000x512 : Shape := ⟨2, ![10000, 512]⟩
abbrev S1024x128 : Shape := ⟨2, ![1024, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S128x64 .f32) (main_arg7 : FVec F S64 .f32) (main_arg8 : FVec F S64x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg8
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg9 main_v33

def fn {F : FTy → Type} [FloatOps F] (main_arg0 : IVec S65536x3 32) (main_arg1 : IVec S65536x3 32) (main_arg2 : FVec F S10000x512 .f32) (main_arg3 : FVec F S10000x512 .f32) (main_arg4 : FVec F S1024x128 .f32) (main_arg5 : FVec F S128 .f32) (main_arg6 : FVec F S128x64 .f32) (main_arg7 : FVec F S64 .f32) (main_arg8 : FVec F S64x1 .f32) (main_arg9 : FVec F S1 .f32) : IVec S_ 1 :=
  let main_v0 : FVec F S10000x512 .f32 := Host.absf main_arg2
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x512 .f32 := Host.absf main_arg3
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S1024x128 .f32 := Host.absf main_arg4
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S65536x3 : Shape := ⟨2, ![65536, 3]⟩
abbrev S10000x512 : Shape := ⟨2, ![10000, 512]⟩
abbrev S1024x128 : Shape := ⟨2, ![1024, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S131072x3 : Shape := ⟨2, ![131072, 3]⟩
abbrev S131072x1 : Shape := ⟨2, ![131072, 1]⟩
abbrev S131072 : Shape := ⟨1, ![131072]⟩
abbrev S_ : Shape := ⟨0, ![]⟩
abbrev S131072x512 : Shape := ⟨2, ![131072, 512]⟩
abbrev S512x128 : Shape := ⟨2, ![512, 128]⟩
abbrev S1x128 : Shape := ⟨2, ![1, 128]⟩
abbrev S1x64 : Shape := ⟨2, ![1, 64]⟩
abbrev S1x1 : Shape := ⟨2, ![1, 1]⟩
abbrev S2048x512 : Shape := ⟨2, ![2048, 512]⟩
abbrev S2048x1 : Shape := ⟨2, ![2048, 1]⟩
abbrev S2048x128 : Shape := ⟨2, ![2048, 128]⟩
abbrev S2048x64 : Shape := ⟨2, ![2048, 64]⟩
abbrev S65536 : Shape := ⟨1, ![65536]⟩

abbrev nBuf : Space → Nat
  | .hbm => 68
  | .vmem => 15
  | .smem => 0
  | _ => 0

abbrev bufTy : (tb : Table) → Fin (tcTables nBuf tb) → BufTy
  | .hbm, ⟨0, _⟩ => ⟨S65536x3, .i32⟩
  | .hbm, ⟨1, _⟩ => ⟨S65536x3, .i32⟩
  | .hbm, ⟨2, _⟩ => ⟨S10000x512, .f32⟩
  | .hbm, ⟨3, _⟩ => ⟨S10000x512, .f32⟩
  | .hbm, ⟨4, _⟩ => ⟨S1024x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S10000x512, .bf16⟩
  | .hbm, ⟨11, _⟩ => ⟨S10000x512, .bf16⟩
  | .hbm, ⟨12, _⟩ => ⟨S131072x3, .i32⟩
  | .hbm, ⟨13, _⟩ => ⟨S131072x1, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x512, .bf16⟩
  | .hbm, ⟨24, _⟩ => ⟨S131072x1, .i32⟩
  | .hbm, ⟨25, _⟩ => ⟨S131072, .i32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S131072x1, .i32⟩
  | .hbm, ⟨34, _⟩ => ⟨S131072x512, .bf16⟩
  | .hbm, ⟨35, _⟩ => ⟨S131072x1, .i32⟩
  | .hbm, ⟨36, _⟩ => ⟨S131072, .i32⟩
  | .hbm, ⟨37, _⟩ => ⟨S_, .i32⟩
  | .hbm, ⟨38, _⟩ => ⟨S131072, .i32⟩
  | .hbm, ⟨39, _⟩ => ⟨S131072, .i1⟩
  | .hbm, ⟨40, _⟩ => ⟨S_, .i32⟩
  | .hbm, ⟨41, _⟩ => ⟨S131072, .i32⟩
  | .hbm, ⟨42, _⟩ => ⟨S131072, .i32⟩
  | .hbm, ⟨43, _⟩ => ⟨S131072, .i32⟩
  | .hbm, ⟨44, _⟩ => ⟨S131072x1, .i32⟩
  | .hbm, ⟨45, _⟩ => ⟨S131072x512, .bf16⟩
  | .hbm, ⟨46, _⟩ => ⟨S512x128, .f32⟩
  | .hbm, ⟨47, _⟩ => ⟨S512x128, .f32⟩
  | .hbm, ⟨48, _⟩ => ⟨S512x128, .bf16⟩
  | .hbm, ⟨49, _⟩ => ⟨S512x128, .bf16⟩
  | .hbm, ⟨50, _⟩ => ⟨S128x64, .bf16⟩
  | .hbm, ⟨51, _⟩ => ⟨S64x1, .bf16⟩
  | .hbm, ⟨52, _⟩ => ⟨S1x128, .f32⟩
  | .hbm, ⟨53, _⟩ => ⟨S1x64, .f32⟩
  | .hbm, ⟨54, _⟩ => ⟨S1x1, .f32⟩
  | .hbm, ⟨55, _⟩ => ⟨S131072x1, .f32⟩
  | .hbm, ⟨56, _⟩ => ⟨S131072, .f32⟩
  | .hbm, ⟨57, _⟩ => ⟨S65536, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S65536, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x128, .bf16⟩
  | .local _ .vmem, ⟨7, _⟩ => ⟨S512x128, .bf16⟩
  | .local _ .vmem, ⟨8, _⟩ => ⟨S1x128, .f32⟩
  | .local _ .vmem, ⟨9, _⟩ => ⟨S128x64, .bf16⟩
  | .local _ .vmem, ⟨10, _⟩ => ⟨S1x64, .f32⟩
  | .local _ .vmem, ⟨11, _⟩ => ⟨S64x1, .bf16⟩
  | .local _ .vmem, ⟨12, _⟩ => ⟨S1x1, .f32⟩
  | .local _ .vmem, ⟨13, _⟩ => ⟨S2048x1, .f32⟩
  | .local _ .vmem, ⟨14, _⟩ => ⟨S2048x1, .f32⟩
  | _, _ => ⟨S65536x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  concatenates_S65536x3_S65536x3_S131072x3_d0 : Shape.Concatenates [S65536x3, S65536x3] S131072x3 0
  slices_S131072x3_S131072x1_0_0 : S131072x3.Slices ![0, 0] S131072x1
  shapeCasts_S131072x1_S131072 : S131072x1.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S131072x3_S131072x1_0_1 : S131072x3.Slices ![0, 1] S131072x1
  slices_S131072x3_S131072x1_0_2 : S131072x3.Slices ![0, 2] S131072x1
  slices_S1024x128_S512x128_0_0 : S1024x128.Slices ![0, 0] S512x128
  slices_S1024x128_S512x128_512_0 : S1024x128.Slices ![512, 0] S512x128
  shapeCasts_S128_S1x128 : S128.ShapeCasts S1x128
  shapeCasts_S64_S1x64 : S64.ShapeCasts S1x64
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  slices_S131072_S65536_0 : S131072.Slices ![0] S65536
  reducesTo_S65536_S_d0 : S65536.ReducesTo [0] S_
  h_S_ : 0 < S_.numel
  slices_S131072_S65536_65536 : S131072.Slices ![65536] S65536
  gather_S10000x512_S131072x1_S131072x512_1_0_n_n_0_1_1512_wf : GatherDims.WF S10000x512 S131072x1 S131072x512 [1] [0] [] [0] [] 1 ![1, 512]
  dot_S2048x512_S512x128_S2048x128_1_0_0_1_n_n_wf : DotDims.WF S2048x512 S512x128 S2048x128 [1] [0] [0] [1] [] []
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .bf16 = 32 ∨ (Rect.block (s := S131072x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S131072x512.size a
  hwx0_1 : ∀ i : grid0.Coords, EltTy.bits .bf16 = 32 ∨ (Rect.block (s := S131072x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S131072x512.size a
  hwx0_2 : ∀ i : grid0.Coords, EltTy.bits .bf16 = 32 ∨ (Rect.block (s := S131072x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .bf16 = 32 ∨ (Rect.block (s := S512x128) S512x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .bf16 = 32 ∨ (Rect.block (s := S64x1) S64x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x1.size a ≤ S131072x1.size a
  hwx0_10 : ∀ i : grid0.Coords, EltTy.bits .f32 = 32 ∨ (Rect.block (s := S131072x1) S2048x1.size (cc0_transform_10 i) (hinb0_10 i)).WholeWords (EltTy.packing .f32)

variable [Facts₀]

def gather_S10000x512_S131072x1_S131072x512_1_0_n_n_0_1_1512 : GatherDims S10000x512 S131072x1 S131072x512 where
  offsetDims := [1]
  collapsedSliceDims := [0]
  operandBatchingDims := []
  startIndicesBatchingDims := []
  startIndexMap := [0]
  indexVectorDim := 1
  sliceSizes := ![1, 512]
  wf := gather_S10000x512_S131072x1_S131072x512_1_0_n_n_0_1_1512_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_v11) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S2048x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x3 : Shape := ⟨2, ![65536, 3]⟩
abbrev S10000x512 : Shape := ⟨2, ![10000, 512]⟩
abbrev S1024x128 : Shape := ⟨2, ![1024, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S65536x1 : Shape := ⟨2, ![65536, 1]⟩
abbrev S65536 : Shape := ⟨1, ![65536]⟩
abbrev S_ : Shape := ⟨0, ![]⟩
abbrev S65536x512 : Shape := ⟨2, ![65536, 512]⟩
abbrev S65536x1024 : Shape := ⟨2, ![65536, 1024]⟩
abbrev S65536x128 : Shape := ⟨2, ![65536, 128]⟩
abbrev S1x128 : Shape := ⟨2, ![1, 128]⟩
abbrev S65536x64 : Shape := ⟨2, ![65536, 64]⟩
abbrev S1x64 : Shape := ⟨2, ![1, 64]⟩
abbrev S1x1 : Shape := ⟨2, ![1, 1]⟩

abbrev nBuf : Space → Nat
  | .hbm => 169
  | .vmem => 0
  | .smem => 0
  | _ => 0

abbrev hbmTy0_0 (i : Nat) : BufTy := match i % 128 with
  | 0 => ⟨S65536x3, .i32⟩
  | 1 => ⟨S65536x3, .i32⟩
  | 2 => ⟨S10000x512, .f32⟩
  | 3 => ⟨S10000x512, .f32⟩
  | 4 => ⟨S1024x128, .f32⟩
  | 5 => ⟨S128, .f32⟩
  | 6 => ⟨S128x64, .f32⟩
  | 7 => ⟨S64, .f32⟩
  | 8 => ⟨S64x1, .f32⟩
  | 9 => ⟨S1, .f32⟩
  | 10 => ⟨S65536x1, .i32⟩
  | 11 => ⟨S65536, .i32⟩
  | 12 => ⟨S_, .i32⟩
  | 13 => ⟨S65536, .i32⟩
  | 14 => ⟨S65536, .i1⟩
  | 15 => ⟨S_, .i32⟩
  | 16 => ⟨S65536, .i32⟩
  | 17 => ⟨S65536, .i32⟩
  | 18 => ⟨S65536, .i32⟩
  | 19 => ⟨S65536x1, .i32⟩
  | 20 => ⟨S65536x512, .f32⟩
  | 21 => ⟨S65536x1, .i32⟩
  | 22 => ⟨S65536, .i32⟩
  | 23 => ⟨S_, .i32⟩
  | 24 => ⟨S65536, .i32⟩
  | 25 => ⟨S65536, .i1⟩
  | 26 => ⟨S_, .i32⟩
  | 27 => ⟨S65536, .i32⟩
  | 28 => ⟨S65536, .i32⟩
  | 29 => ⟨S65536, .i32⟩
  | 30 => ⟨S65536x1, .i32⟩
  | 31 => ⟨S65536x512, .f32⟩
  | 32 => ⟨S65536x1, .i32⟩
  | 33 => ⟨S65536, .i32⟩
  | 34 => ⟨S_, .i32⟩
  | 35 => ⟨S65536, .i32⟩
  | 36 => ⟨S65536, .i1⟩
  | 37 => ⟨S_, .i32⟩
  | 38 => ⟨S65536, .i32⟩
  | 39 => ⟨S65536, .i32⟩
  | 40 => ⟨S65536, .i32⟩
  | 41 => ⟨S65536x1, .i32⟩
  | 42 => ⟨S65536x512, .f32⟩
  | 43 => ⟨S65536x1024, .f32⟩
  | 44 => ⟨S65536x128, .f32⟩
  | 45 => ⟨S1x128, .f32⟩
  | 46 => ⟨S65536x128, .f32⟩
  | 47 => ⟨S65536x128, .f32⟩
  | 48 => ⟨S_, .f32⟩
  | 49 => ⟨S65536x128, .f32⟩
  | 50 => ⟨S65536x128, .f32⟩
  | 51 => ⟨S65536x64, .f32⟩
  | 52 => ⟨S1x64, .f32⟩
  | 53 => ⟨S65536x64, .f32⟩
  | 54 => ⟨S65536x64, .f32⟩
  | 55 => ⟨S_, .f32⟩
  | 56 => ⟨S65536x64, .f32⟩
  | 57 => ⟨S65536x64, .f32⟩
  | 58 => ⟨S65536x1, .f32⟩
  | 59 => ⟨S1x1, .f32⟩
  | 60 => ⟨S65536x1, .f32⟩
  | 61 => ⟨S65536x1, .f32⟩
  | 62 => ⟨S65536, .f32⟩
  | 63 => ⟨S65536x1024, .f32⟩
  | 64 => ⟨S65536x128, .f32⟩
  | 65 => ⟨S1x128, .f32⟩
  | 66 => ⟨S65536x128, .f32⟩
  | 67 => ⟨S65536x128, .f32⟩
  | 68 => ⟨S_, .f32⟩
  | 69 => ⟨S65536x128, .f32⟩
  | 70 => ⟨S65536x128, .f32⟩
  | 71 => ⟨S65536x64, .f32⟩
  | 72 => ⟨S1x64, .f32⟩
  | 73 => ⟨S65536x64, .f32⟩
  | 74 => ⟨S65536x64, .f32⟩
  | 75 => ⟨S_, .f32⟩
  | 76 => ⟨S65536x64, .f32⟩
  | 77 => ⟨S65536x64, .f32⟩
  | 78 => ⟨S65536x1, .f32⟩
  | 79 => ⟨S1x1, .f32⟩
  | 80 => ⟨S65536x1, .f32⟩
  | 81 => ⟨S65536x1, .f32⟩
  | 82 => ⟨S65536, .f32⟩
  | 83 => ⟨S65536, .f32⟩
  | 84 => ⟨S65536, .f32⟩
  | 85 => ⟨S_, .f32⟩
  | 86 => ⟨S_, .f32⟩
  | 87 => ⟨S_, .f32⟩
  | 88 => ⟨S_, .f32⟩
  | 89 => ⟨S65536x1, .i32⟩
  | 90 => ⟨S65536, .i32⟩
  | 91 => ⟨S_, .i32⟩
  | 92 => ⟨S65536, .i32⟩
  | 93 => ⟨S65536, .i1⟩
  | 94 => ⟨S_, .i32⟩
  | 95 => ⟨S65536, .i32⟩
  | 96 => ⟨S65536, .i32⟩
  | 97 => ⟨S65536, .i32⟩
  | 98 => ⟨S65536x1, .i32⟩
  | 99 => ⟨S65536x512, .f32⟩
  | 100 => ⟨S65536x1, .i32⟩
  | 101 => ⟨S65536, .i32⟩
  | 102 => ⟨S_, .i32⟩
  | 103 => ⟨S65536, .i32⟩
  | 104 => ⟨S65536, .i1⟩
  | 105 => ⟨S_, .i32⟩
  | 106 => ⟨S65536, .i32⟩
  | 107 => ⟨S65536, .i32⟩
  | 108 => ⟨S65536, .i32⟩
  | 109 => ⟨S65536x1, .i32⟩
  | 110 => ⟨S65536x512, .f32⟩
  | 111 => ⟨S65536x1, .i32⟩
  | 112 => ⟨S65536, .i32⟩
  | 113 => ⟨S_, .i32⟩
  | 114 => ⟨S65536, .i32⟩
  | 115 => ⟨S65536, .i1⟩
  | 116 => ⟨S_, .i32⟩
  | 117 => ⟨S65536, .i32⟩
  | 118 => ⟨S65536, .i32⟩
  | 119 => ⟨S65536, .i32⟩
  | 120 => ⟨S65536x1, .i32⟩
  | 121 => ⟨S65536x512, .f32⟩
  | 122 => ⟨S65536x1024, .f32⟩
  | 123 => ⟨S65536x128, .f32⟩
  | 124 => ⟨S1x128, .f32⟩
  | 125 => ⟨S65536x128, .f32⟩
  | 126 => ⟨S65536x128, .f32⟩
  | 127 => ⟨S_, .f32⟩
  | _ => ⟨S65536x3, .i32⟩

abbrev hbmTy0_1 (i : Nat) : BufTy := match i % 128 with
  | 0 => ⟨S65536x128, .f32⟩
  | 1 => ⟨S65536x128, .f32⟩
  | 2 => ⟨S65536x64, .f32⟩
  | 3 => ⟨S1x64, .f32⟩
  | 4 => ⟨S65536x64, .f32⟩
  | 5 => ⟨S65536x64, .f32⟩
  | 6 => ⟨S_, .f32⟩
  | 7 => ⟨S65536x64, .f32⟩
  | 8 => ⟨S65536x64, .f32⟩
  | 9 => ⟨S65536x1, .f32⟩
  | 10 => ⟨S1x1, .f32⟩
  | 11 => ⟨S65536x1, .f32⟩
  | 12 => ⟨S65536x1, .f32⟩
  | 13 => ⟨S65536, .f32⟩
  | 14 => ⟨S65536x1024, .f32⟩
  | 15 => ⟨S65536x128, .f32⟩
  | 16 => ⟨S1x128, .f32⟩
  | 17 => ⟨S65536x128, .f32⟩
  | 18 => ⟨S65536x128, .f32⟩
  | 19 => ⟨S_, .f32⟩
  | 20 => ⟨S65536x128, .f32⟩
  | 21 => ⟨S65536x128, .f32⟩
  | 22 => ⟨S65536x64, .f32⟩
  | 23 => ⟨S1x64, .f32⟩
  | 24 => ⟨S65536x64, .f32⟩
  | 25 => ⟨S65536x64, .f32⟩
  | 26 => ⟨S_, .f32⟩
  | 27 => ⟨S65536x64, .f32⟩
  | 28 => ⟨S65536x64, .f32⟩
  | 29 => ⟨S65536x1, .f32⟩
  | 30 => ⟨S1x1, .f32⟩
  | 31 => ⟨S65536x1, .f32⟩
  | 32 => ⟨S65536x1, .f32⟩
  | 33 => ⟨S65536, .f32⟩
  | 34 => ⟨S65536, .f32⟩
  | 35 => ⟨S65536, .f32⟩
  | 36 => ⟨S_, .f32⟩
  | 37 => ⟨S_, .f32⟩
  | 38 => ⟨S_, .f32⟩
  | 39 => ⟨S_, .f32⟩
  | 40 => ⟨S_, .f32⟩
  | _ => ⟨S65536x3, .i32⟩

abbrev hbmTy (i : Nat) : BufTy := match i / 128 with
  | 0 => hbmTy0_0 i
  | 1 => hbmTy0_1 i
  | _ => ⟨S65536x3, .i32⟩

abbrev bufTy : (tb : Table) → Fin (tcTables nBuf tb) → BufTy
  | .hbm, ⟨i, _⟩ => hbmTy i
  | _, _ => ⟨S65536x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call2_cst : Ref sig .tc := ⟨.hbm, 68, rfl⟩
abbrev main_call2_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call3_cst : Ref sig .tc := ⟨.hbm, 75, rfl⟩
abbrev main_call3_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst : Ref sig .tc := ⟨.hbm, 85, rfl⟩
abbrev main_v61 : Ref sig .tc := ⟨.hbm, 86, rfl⟩
abbrev main_cst_5 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_6 : Ref sig .tc := ⟨.hbm, 91, rfl⟩
abbrev main_v65 : Ref sig .tc := ⟨.hbm, 92, rfl⟩
abbrev main_v66 : Ref sig .tc := ⟨.hbm, 93, rfl⟩
abbrev main_c_7 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_8 : Ref sig .tc := ⟨.hbm, 102, rfl⟩
abbrev main_v74 : Ref sig .tc := ⟨.hbm, 103, rfl⟩
abbrev main_v75 : Ref sig .tc := ⟨.hbm, 104, rfl⟩
abbrev main_c_9 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_10 : Ref sig .tc := ⟨.hbm, 113, rfl⟩
abbrev main_v83 : Ref sig .tc := ⟨.hbm, 114, rfl⟩
abbrev main_v84 : Ref sig .tc := ⟨.hbm, 115, rfl⟩
abbrev main_c_11 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call4_cst : Ref sig .tc := ⟨.hbm, 127, rfl⟩
abbrev main_call4_v0 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_call5_cst : Ref sig .tc := ⟨.hbm, 134, rfl⟩
abbrev main_call5_v0 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_call6_cst : Ref sig .tc := ⟨.hbm, 147, rfl⟩
abbrev main_call6_v0 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_call7_cst : Ref sig .tc := ⟨.hbm, 154, rfl⟩
abbrev main_call7_v0 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_12 : Ref sig .tc := ⟨.hbm, 164, rfl⟩
abbrev main_v124 : Ref sig .tc := ⟨.hbm, 165, rfl⟩
abbrev main_cst_13 : Ref sig .tc := ⟨.hbm, 166, rfl⟩
abbrev main_v125 : Ref sig .tc := ⟨.hbm, 167, rfl⟩
abbrev main_v126 : Ref sig .tc := ⟨.hbm, 168, rfl⟩

abbrev nD : Nat := 1
abbrev τ : Topo := Topo.v7x

variable {F : FTy → Type} [FloatOps F]

class Facts₀ : Prop where
  slices_S65536x3_S65536x1_0_0 : S65536x3.Slices ![0, 0] S65536x1
  shapeCasts_S65536x1_S65536 : S65536x1.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  slices_S65536x3_S65536x1_0_1 : S65536x3.Slices ![0, 1] S65536x1
  slices_S65536x3_S65536x1_0_2 : S65536x3.Slices ![0, 2] S65536x1
  concatenates_S65536x512_S65536x512_S65536x1024_d1 : Shape.Concatenates [S65536x512, S65536x512] S65536x1024 1
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536_S_d0 : S65536.ReducesTo [0] S_
  h_S_ : 0 < S_.numel
  gather_S10000x512_S65536x1_S65536x512_1_0_n_n_0_1_1512_wf : GatherDims.WF S10000x512 S65536x1 S65536x512 [1] [0] [] [0] [] 1 ![1, 512]
  dot_S65536x1024_S1024x128_S65536x128_1_0_0_1_n_n_wf : DotDims.WF S65536x1024 S1024x128 S65536x128 [1] [0] [0] [1] [] []
  dot_S65536x128_S128x64_S65536x64_1_0_0_1_n_n_wf : DotDims.WF S65536x128 S128x64 S65536x64 [1] [0] [0] [1] [] []
  dot_S65536x64_S64x1_S65536x1_1_0_0_1_n_n_wf : DotDims.WF S65536x64 S64x1 S65536x1 [1] [0] [0] [1] [] []

variable [Facts₀]

def gather_S10000x512_S65536x1_S65536x512_1_0_n_n_0_1_1512 : GatherDims S10000x512 S65536x1 S65536x512 where
  offsetDims := [1]
  collapsedSliceDims := [0]
  operandBatchingDims := []
  startIndicesBatchingDims := []
  startIndexMap := [0]
  indexVectorDim := 1
  sliceSizes := ![1, 512]
  wf := gather_S10000x512_S65536x1_S65536x512_1_0_n_n_0_1_1512_wf
def dot_S65536x1024_S1024x128_S65536x128_1_0_0_1_n_n : DotDims S65536x1024 S1024x128 S65536x128 where
  lhsContracting := [1]
  rhsContracting := [0]
  lhsNonContracting := [0]
  rhsNonContracting := [1]
  lhsBatch := []
  rhsBatch := []
  wf := dot_S65536x1024_S1024x128_S65536x128_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf

class Facts : Prop extends Facts₀ where

variable [Facts]
-- ==== Proof.HostAfter.lean ====
/-
  The host lines after the kernel's region, read back.

  The region leaves a column `out` of 131072 loss terms: rows 0 … 65535 belong to the positive pairs and rows
  65536 … 131071 to the negative pairs. The lines after it flatten the column, cut it into its two halves, and
  return (sum of the first half) / 65536 − (sum of the second half) / 65536. The two sums, the two quotients and
  the difference are kept as ONE function `meanDiff` of the two halves: the reference ends with the same operations
  applied to its own two arrays of loss terms, so the two results are equal as soon as the halves are.
-/
import proofs.«179089_j49606872269326_2_alg».proof.Proof.Gen.KernelIdeal.Frame
import Idealize.ShloMosaic.Lib.StableHlo.Run
import Idealize.ShloMosaic.Lib.Pipeline.Value
import Idealize.ShloMosaic.Lib.ValueIdx

noncomputable section

namespace Cert.Proof.HostAfter

open Idealize.ShloMosaic Idealize.ShloMosaic.TcCoe Idealize.SL.Sem Idealize.ShloMosaic.StableHlo Idealize.ShloMosaic.ValueIdx
open Cert.KernelIdeal Cert.KernelIdeal.Gen

/-- The mean of the positive pairs' loss terms minus the mean of the negative pairs' loss terms, as the host
    computes them: each a sum from zero divided by 65536. -/
def meanDiff (pos neg : S65536.Idx → EReal) : S_.Idx → EReal :=
  subf (F := Ideal) (φ := .f32)
    (Host.divf (F := Ideal) (φ := .f32) (Host.reduceAdd (F := Ideal) (φ := .f32) pos (constant (F := Ideal) S_ .f32 0x00000000#32) reducesTo_S65536_S_d0 h_S_)
      (constant (F := Ideal) S_ .f32 0x47800000#32))
    (Host.divf (F := Ideal) (φ := .f32) (Host.reduceAdd (F := Ideal) (φ := .f32) neg (constant (F := Ideal) S_ .f32 0x00000000#32) reducesTo_S65536_S_d0 h_S_)
      (constant (F := Ideal) S_ .f32 0x47800000#32))

/-- The first half of the flattened column: rows 0 … 65535. -/
def upperHalf (out : S131072x1.Idx → EReal) : S65536.Idx → EReal :=
  extractStridedSlice S65536 ![0] (shapeCast S131072 out shapeCasts_S131072x1_S131072) slices_S131072_S65536_0

/-- The second half of the flattened column: rows 65536 … 131071. -/
def lowerHalf (out : S131072x1.Idx → EReal) : S65536.Idx → EReal :=
  extractStridedSlice S65536 ![65536] (shapeCast S131072 out shapeCasts_S131072x1_S131072) slices_S131072_S65536_65536

/-- Entry `j` of the first half is row `j` of the column. -/
theorem upperHalf_apply (out : S131072x1.Idx → EReal) (j : Fin 65536) :
    upperHalf out (ix1 j) = out (ix2 (⟨j.val, by omega⟩ : Fin 131072) (0 : Fin 1)) := by
  unfold upperHalf
  rw [extractStridedSlice_apply ![0] _ slices_S131072_S65536_0 (ix1 j) (ix1 (⟨j.val, by omega⟩ : Fin 131072))
    (fun a => by match a with | ⟨0, _⟩ => show j.val = 0 + j.val; omega)]
  exact shapeCast_apply out shapeCasts_S131072x1_S131072 _ _
    (by rewrite [Shape.rowMajor_val_two, Shape.rowMajor_val_one]; show j.val * 1 + 0 = j.val; omega)

/-- Entry `j` of the second half is row `65536 + j` of the column. -/
theorem lowerHalf_apply (out : S131072x1.Idx → EReal) (j : Fin 65536) :
    lowerHalf out (ix1 j) = out (ix2 (⟨65536 + j.val, by omega⟩ : Fin 131072) (0 : Fin 1)) := by
  unfold lowerHalf
  rw [extractStridedSlice_apply ![65536] _ slices_S131072_S65536_65536 (ix1 j) (ix1 (⟨65536 + j.val, by omega⟩ : Fin 131072))
    (fun a => by match a with | ⟨0, _⟩ => show 65536 + j.val = 65536 + j.val; rfl)]
  exact shapeCast_apply out shapeCasts_S131072x1_S131072 _ _
    (by rewrite [Shape.rowMajor_val_two, Shape.rowMajor_val_one]; show (65536 + j.val) * 1 + 0 = 65536 + j.val; omega)

variable (m : (ℓ : Loc nD τ sig) → Buf (Elt Ideal) ℓ) (c : Dev nD)

/-- The result buffer after the host lines that follow the region: `meanDiff` of the two halves of whatever the
    region's output array ends holding. -/
theorem result_eq (out : S131072x1.Idx → EReal) (hout : (dats m 0 c).arrAt 10 cfg0.N = out) :
    Pipeline.afterTail₀ cfgs (dats m) 0 (V0 m) [hostOps1] c main_v47 = meanDiff (upperHalf out) (lowerHalf out) := by
  unfold Pipeline.afterTail₀
  show StableHlo.after hostOps1 _ (Proc.devRef .tc main_v47) = _
  after_results
  have e := Pipeline.withArrays_arr (cfgs 0).spec launch0.win.arr_inj c (V0 m c) (fun w => (dats m 0 c).arrAt w (cfgs 0).N) 10
  rw [show Pipeline.withArrays (cfgs 0).spec c (V0 m c) (fun w => (dats m 0 c).arrAt w (cfgs 0).N) (Proc.devRef .tc main_v39)
      = (dats m 0 c).arrAt 10 cfg0.N from e, hout]
  rfl

end Cert.Proof.HostAfter

end
-- ==== Proof.Spec.lean ====
/-
  The score both programs compute for one pair row, as pure functions on the extended reals.

  A pair row holds a drug embedding `d` and a target embedding `t` (512 entries each). The first layer's weight
  matrix has 1024 rows; its upper half `Wa` multiplies `d` and its lower half `Wb` multiplies `t`:

    hidden1 j = max ((∑ k, d k · Wa k j + ∑ k, t k · Wb k j) + b1 j) z
    hidden2 j = max (∑ k, hidden1 k · W2 k j + b2 j) z
    affinity  = ∑ k, hidden2 k · W3 k + b3

  where `z` is the floor of the rectifier. For a drug and two targets the loss term is the squared difference of
  the two affinities. Joining `d` and `t` side by side into one row of 1024 entries and contracting it with the
  whole weight matrix gives the same first layer: a sum over 1024 consecutive terms is the sum of its first 512 and
  its last 512 terms, in any commutative monoid, so on the extended reals too (no finiteness is involved).
-/
import Idealize.ShloMosaic.PureOps.Ideal
import Idealize.ShloMosaic.Lib.ValueIdx

noncomputable section

open scoped BigOperators

namespace Cert.Proof.PairScore

/-- The first hidden layer of one pair row, with the weight matrix given as its two halves. -/
def hidden1 (z : EReal) (d t : Fin 512 → EReal) (Wa Wb : Fin 512 → Fin 128 → EReal) (b1 : Fin 128 → EReal)
    (j : Fin 128) : EReal :=
  max ((∑ k, d k * Wa k j + ∑ k, t k * Wb k j) + b1 j) z

/-- The second hidden layer. -/
def hidden2 (z : EReal) (h : Fin 128 → EReal) (W2 : Fin 128 → Fin 64 → EReal) (b2 : Fin 64 → EReal) (j : Fin 64) : EReal :=
  max (∑ k, h k * W2 k j + b2 j) z

/-- The affinity of a drug row and a target row. -/
def affinity (z : EReal) (d t : Fin 512 → EReal) (Wa Wb : Fin 512 → Fin 128 → EReal) (b1 : Fin 128 → EReal)
    (W2 : Fin 128 → Fin 64 → EReal) (b2 : Fin 64 → EReal) (W3 : Fin 64 → EReal) (b3 : EReal) : EReal :=
  ∑ k, hidden2 z (hidden1 z d t Wa Wb b1) W2 b2 k * W3 k + b3

/-- The loss term of a drug row and two target rows: the squared difference of the two affinities. -/
def sqdiff (z : EReal) (d t1 t2 : Fin 512 → EReal) (Wa Wb : Fin 512 → Fin 128 → EReal) (b1 : Fin 128 → EReal)
    (W2 : Fin 128 → Fin 64 → EReal) (b2 : Fin 64 → EReal) (W3 : Fin 64 → EReal) (b3 : EReal) : EReal :=
  (affinity z d t1 Wa Wb b1 W2 b2 W3 b3 - affinity z d t2 Wa Wb b1 W2 b2 W3 b3)
    * (affinity z d t1 Wa Wb b1 W2 b2 W3 b3 - affinity z d t2 Wa Wb b1 W2 b2 W3 b3)

/-- Position `k` of the upper half of 1024 rows. -/
def lo (k : Fin 512) : Fin 1024 := ⟨k.val, by omega⟩
/-- Position `k` of the lower half of 1024 rows. -/
def hi (k : Fin 512) : Fin 1024 := ⟨512 + k.val, by omega⟩

@[simp] theorem lo_val (k : Fin 512) : (lo k).val = k.val := rfl
@[simp] theorem hi_val (k : Fin 512) : (hi k).val = 512 + k.val := rfl

/-- A sum of 1024 consecutive terms is the sum of its first 512 and its last 512 terms. -/
theorem sum_halves {M : Type*} [AddCommMonoid M] (f : Fin 1024 → M) :
    ∑ k, f k = ∑ k : Fin 512, f (lo k) + ∑ k : Fin 512, f (hi k) := by
  have h := Fin.sum_univ_add (a := 512) (b := 512) (fun i : Fin (512 + 512) => f i)
  exact h

/-- The first layer over the joined row: if `x` is `d` followed by `t` and `W` is `Wa` above `Wb`, contracting `x` with
    `W` is the sum of the two half contractions. -/
theorem joined_contraction (x : Fin 1024 → EReal) (W : Fin 1024 → EReal) (d t : Fin 512 → EReal) (wa wb : Fin 512 → EReal)
    (hd : ∀ k, x (lo k) = d k) (ht : ∀ k, x (hi k) = t k) (ha : ∀ k, W (lo k) = wa k) (hb : ∀ k, W (hi k) = wb k) :
    ∑ k, x k * W k = ∑ k, d k * wa k + ∑ k, t k * wb k := by
  rw [sum_halves]
  simp only [hd, ht, ha, hb]

/-! ## The rows a pair names, and the loss term of one pair from the argument arrays -/

open Idealize.ShloMosaic Idealize.ShloMosaic.ValueIdx

/-- An index into a table of 10000 rows as `x[i]` normalises it: a negative index counts from the end. -/
def wrap (v : BitVec 32) : BitVec 32 := Scalar.select (IntOp.cmpi .slt v 0#32) (IntOp.addi v 10000#32) v

/-- The table row an index names: normalised, read signed, and clamped into [0, 9999] as a gather clamps its start. -/
def rowNo (v : BitVec 32) : Fin 10000 := ⟨min (wrap v).toInt.toNat (10000 - 1), by omega⟩

/-- The loss term of one pair (drug index `p0`, target indices `p1`, `p2`) from the two embedding tables and the three
    layers' weights and biases: the drug's row of `D`, the targets' rows of `T`, the first layer's weights split into
    the rows that meet the drug and the rows that meet the target. -/
def pairRow (z : EReal) (D T : (⟨2, ![10000, 512]⟩ : Shape).Idx → EReal) (W1 : (⟨2, ![1024, 128]⟩ : Shape).Idx → EReal)
    (b1 : (⟨1, ![128]⟩ : Shape).Idx → EReal) (W2 : (⟨2, ![128, 64]⟩ : Shape).Idx → EReal) (b2 : (⟨1, ![64]⟩ : Shape).Idx → EReal)
    (W3 : (⟨2, ![64, 1]⟩ : Shape).Idx → EReal) (b3 : (⟨1, ![1]⟩ : Shape).Idx → EReal) (p0 p1 p2 : BitVec 32) : EReal :=
  sqdiff z (fun k => D (ix2 (rowNo p0) k)) (fun k => T (ix2 (rowNo p1) k)) (fun k => T (ix2 (rowNo p2) k))
    (fun k j => W1 (ix2 (lo k) j)) (fun k j => W1 (ix2 (hi k) j)) (fun j => b1 (ix1 j))
    (fun k j => W2 (ix2 k j)) (fun j => b2 (ix1 j)) (fun k => W3 (ix2 k 0)) (b3 (ix1 0))

end Cert.Proof.PairScore

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.KernelBody.lean ====
/-
  The kernel body's output block read at one row.

  The body holds a block of 2048 pair rows: a drug block, two target blocks, and the three layers' weights and
  biases. For each row it forms the first hidden layer twice (drug with the first target, drug with the second
  target), each as the sum of two matrix products (the drug row against the upper half of the first layer's weights,
  the target row against the lower half) plus the bias, rectified; then the second hidden layer of each, rectified;
  then the third layer, a single column, plus its bias: two affinities. The block it leaves is the square of their
  difference. Read at row `y` this is `sqdiff` of the row's three embeddings and the weights.

  Each matrix product into a zero accumulator is, on the extended reals, the textbook sum over the contracted axis;
  the elementwise operations read through at an index; a shape cast to the same shape is the identity; a one-row
  array broadcast over the rows reads its one row; a narrowing format change is the identity.
-/
import proofs.«179089_j49606872269326_2_alg».proof.Proof.Gen.KernelIdeal.Frame
import proofs.«179089_j49606872269326_2_alg».proof.Proof.Spec
import proofs.«179089_j49606872269326_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Proof.KernelBody

open Idealize.ShloMosaic Idealize.ShloMosaic.ValueIdx Cert.KernelIdeal Cert.KernelIdeal.Gen Cert.Proof.PairScore

/-! ## The three matrix products' dimension numbers are the plain ones -/

theorem dot1_eq : dot_S2048x512_S512x128_S2048x128_1_0_0_1_n_n = DotDims.plain 2048 512 128 := rfl
theorem dot2_eq : dot_S2048x128_S128x64_S2048x64_1_0_0_1_n_n = DotDims.plain 2048 128 64 := rfl
theorem dot3_eq : dot_S2048x64_S64x1_S2048x1_1_0_0_1_n_n = DotDims.plain 2048 64 1 := rfl

/-! ## Each matrix product into the zero accumulator, read at an index -/

/-- A 2048 × 512 block times a 512 × 128 matrix. -/
theorem mm1_apply (X : FVec Ideal S2048x512 .bf16) (W : FVec Ideal S512x128 .bf16) (r : Fin 2048) (j : Fin 128) :
    matmul dot_S2048x512_S512x128_S2048x128_1_0_0_1_n_n none X W (constant (F := Ideal) S2048x128 .f32 0x00000000#32) (ix2 r j)
      = ∑ k : Fin 512, X (ix2 r k) * W (ix2 k j) := by
  rw [dot1_eq]
  exact PlainDot.matmul_plain_zero none X W (ix2 r j)

/-- A 2048 × 128 block times a 128 × 64 matrix. -/
theorem mm2_apply (X : FVec Ideal S2048x128 .bf16) (W : FVec Ideal S128x64 .bf16) (r : Fin 2048) (j : Fin 64) :
    matmul dot_S2048x128_S128x64_S2048x64_1_0_0_1_n_n none X W (constant (F := Ideal) S2048x64 .f32 0x00000000#32) (ix2 r j)
      = ∑ k : Fin 128, X (ix2 r k) * W (ix2 k j) := by
  rw [dot2_eq]
  exact PlainDot.matmul_plain_zero none X W (ix2 r j)

/-- A 2048 × 64 block times a 64 × 1 column. -/
theorem mm3_apply (X : FVec Ideal S2048x64 .bf16) (W : FVec Ideal S64x1 .bf16) (r : Fin 2048) (j : Fin 1) :
    matmul dot_S2048x64_S64x1_S2048x1_1_0_0_1_n_n none X W (constant (F := Ideal) S2048x1 .f32 0x00000000#32) (ix2 r j)
      = ∑ k : Fin 64, X (ix2 r k) * W (ix2 k j) := by
  rw [dot3_eq]
  exact PlainDot.matmul_plain_zero none X W (ix2 r j)

/-! ## The small payloads: casts to the same shape, and the second layer's bias over the rows -/

theorem pay3_eq (v15 : Vec Ideal S1x128 .f32) : k0_pay3 (F := Ideal) v15 = v15 := by
  unfold k0_pay3
  exact shapeCast_self _ _

theorem pay5_eq (v29 : Vec Ideal S128x64 .bf16) : k0_pay5 (F := Ideal) v29 = v29 := by
  unfold k0_pay5
  exact shapeCast_self _ _

theorem pay6_eq (v31 : Vec Ideal S1x64 .f32) : k0_pay6 (F := Ideal) v31 = v31 := by
  unfold k0_pay6
  exact shapeCast_self _ _

/-- The second layer's bias, one row, read at any row. -/
theorem pay8_apply (v31 : Vec Ideal S1x64 .f32) (r : Fin 2048) (j : Fin 64) :
    k0_pay8 (F := Ideal) v31 (ix2 r j) = v31 (ix2 0 j) := by
  unfold k0_pay8
  rw [pay6_eq]
  exact broadcastTo_1b_ab_apply v31 _ r j

/-! ## The first layer -/

/-- The drug block times the upper half of the first layer's weights. -/
theorem pay2_apply (v0 : Vec Ideal S2048x512 .bf16) (v6 : Vec Ideal S512x128 .bf16) (r : Fin 2048) (j : Fin 128) :
    k0_pay2 (F := Ideal) v0 v6 (ix2 r j) = ∑ k : Fin 512, v0 (ix2 r k) * v6 (ix2 k j) := by
  unfold k0_pay2
  simp only [shapeCast_self]
  exact mm1_apply v0 v6 r j

/-- The first hidden layer of a drug block and a target block, read at a row and a hidden unit. -/
theorem pay4_apply (v0 v4 : Vec Ideal S2048x512 .bf16) (v6 v12 : Vec Ideal S512x128 .bf16) (v15 : Vec Ideal S1x128 .f32)
    (r : Fin 2048) (j : Fin 128) :
    k0_pay4 (F := Ideal) v0 v4 v6 v12 v15 (ix2 r j)
      = hidden1 (Ideal.ofBits .f32 0x00000000#32) (fun k => v0 (ix2 r k)) (fun k => v4 (ix2 r k))
          (fun k j => v6 (ix2 k j)) (fun k j => v12 (ix2 k j)) (fun j => v15 (ix2 0 j)) j := by
  unfold k0_pay4
  simp only [shapeCast_self, pay3_eq]
  rw [truncf_apply, maximumf_apply, addf_apply, addf_apply, pay2_apply, mm1_apply, broadcastTo_1b_ab_apply, broadcast_apply]
  rfl

/-! ## The second layer's product for the first target -/

/-- The payload is the second layer's matrix product of the first hidden layer's block. -/
theorem pay7_eq (v0 v2 : Vec Ideal S2048x512 .bf16) (v6 v9 : Vec Ideal S512x128 .bf16) (v15 : Vec Ideal S1x128 .f32)
    (v29 : Vec Ideal S128x64 .bf16) :
    k0_pay7 (F := Ideal) v0 v2 v6 v9 v15 v29
      = matmul dot_S2048x128_S128x64_S2048x64_1_0_0_1_n_n none (k0_pay4 (F := Ideal) v0 v2 v6 v9 v15) (k0_pay5 (F := Ideal) v29)
          (constant (F := Ideal) S2048x64 .f32 0x00000000#32) := rfl

/-- Read at a row and a unit of the second layer: the first hidden layer contracted with the second layer's weights. -/
theorem pay7_apply (v0 v2 : Vec Ideal S2048x512 .bf16) (v6 v9 : Vec Ideal S512x128 .bf16) (v15 : Vec Ideal S1x128 .f32)
    (v29 : Vec Ideal S128x64 .bf16) (r : Fin 2048) (j : Fin 64) :
    k0_pay7 (F := Ideal) v0 v2 v6 v9 v15 v29 (ix2 r j)
      = ∑ k : Fin 128, hidden1 (Ideal.ofBits .f32 0x00000000#32) (fun k => v0 (ix2 r k)) (fun k => v2 (ix2 r k))
          (fun k j => v6 (ix2 k j)) (fun k j => v9 (ix2 k j)) (fun j => v15 (ix2 0 j)) k * v29 (ix2 k j) := by
  rw [pay7_eq, pay5_eq]
  refine (mm2_apply _ _ r j).trans ?_
  refine Finset.sum_congr rfl fun k _ => ?_
  rw [pay4_apply]

/-! ## The last payload: both second layers, both affinities, the squared difference -/

/-- The stored block at a row, from the values the body holds when it forms it: `v33` the second layer's product for
    the first target and `v34` its bias over the rows, `v28` the first hidden layer for the second target, `v30`,
    `v32` the second layer, `v45`, `v47` the third. -/
theorem pay1_apply (v28 : FVec Ideal S2048x128 .bf16) (v30 : FVec Ideal S128x64 .bf16) (v32 : FVec Ideal S1x64 .f32)
    (v33 v34 : FVec Ideal S2048x64 .f32) (v45 : Vec Ideal S64x1 .bf16) (v47 : Vec Ideal S1x1 .f32) (r : Fin 2048) :
    k0_pay1 (F := Ideal) v28 v30 v32 v33 v34 v45 v47 (ix2 r 0)
      = ((∑ k : Fin 64, max (v33 (ix2 r k) + v34 (ix2 r k)) (Ideal.ofBits .f32 0x00000000#32) * v45 (ix2 k 0) + v47 (ix2 0 0))
          - (∑ k : Fin 64, max (∑ m : Fin 128, v28 (ix2 r m) * v30 (ix2 m k) + v32 (ix2 0 k)) (Ideal.ofBits .f32 0x00000000#32)
                * v45 (ix2 k 0) + v47 (ix2 0 0)))
        * ((∑ k : Fin 64, max (v33 (ix2 r k) + v34 (ix2 r k)) (Ideal.ofBits .f32 0x00000000#32) * v45 (ix2 k 0) + v47 (ix2 0 0))
          - (∑ k : Fin 64, max (∑ m : Fin 128, v28 (ix2 r m) * v30 (ix2 m k) + v32 (ix2 0 k)) (Ideal.ofBits .f32 0x00000000#32)
                * v45 (ix2 k 0) + v47 (ix2 0 0))) := by
  unfold k0_pay1
  simp only [shapeCast_self]
  rw [mulf_apply, subf_apply, addf_apply, addf_apply, mm3_apply, mm3_apply, broadcastTo_1b_ab_apply]
  simp only [truncf_apply, maximumf_apply, addf_apply, broadcast_apply, mm2_apply, broadcastTo_1b_ab_apply]
  rfl

/-! ## The output block -/

/-- The body's loads and its one store go through the whole block at offset zero. -/
theorem off_zero : (![0, 0] : Fin 2 → Nat) = fun _ => 0 :=
  funext fun a => by match a with | ⟨0, _⟩ => rfl | ⟨1, _⟩ => rfl

/-- So the block the body leaves is its last payload of the input blocks themselves. -/
theorem out_eq (x0 x1 x2 : Vec Ideal S2048x512 .bf16) (x3 x4 : Vec Ideal S512x128 .bf16) (x5 : Vec Ideal S1x128 .f32)
    (x6 : Vec Ideal S128x64 .bf16) (x7 : Vec Ideal S1x64 .f32) (x8 : Vec Ideal S64x1 .bf16) (x9 : Vec Ideal S1x1 .f32) :
    Cert.KernelIdeal.Gen.out0_10 (F := Ideal) x0 x1 x2 x3 x4 x5 x6 x7 x8 x9
      = k0_pay1 (F := Ideal) (k0_pay4 (F := Ideal) x0 x2 x3 x4 x5) (k0_pay5 (F := Ideal) x6) (k0_pay6 (F := Ideal) x7)
          (k0_pay7 (F := Ideal) x0 x1 x3 x4 x5 x6) (k0_pay8 (F := Ideal) x7) x8 x9 := by
  unfold out0_10
  rw [View.canon_unit_zero off_zero]
  simp only [View.ld_unit_zero (S := S2048x512) off_zero, View.ld_unit_zero (S := S512x128) off_zero,
    View.ld_unit_zero (S := S1x128) off_zero, View.ld_unit_zero (S := S128x64) off_zero,
    View.ld_unit_zero (S := S1x64) off_zero, View.ld_unit_zero (S := S64x1) off_zero,
    View.ld_unit_zero (S := S1x1) off_zero]

/-- The output block at row `y` is the squared difference of the two affinities of the row's drug embedding with its
    two target embeddings. -/
theorem out_apply (x0 x1 x2 : Vec Ideal S2048x512 .bf16) (x3 x4 : Vec Ideal S512x128 .bf16) (x5 : Vec Ideal S1x128 .f32)
    (x6 : Vec Ideal S128x64 .bf16) (x7 : Vec Ideal S1x64 .f32) (x8 : Vec Ideal S64x1 .bf16) (x9 : Vec Ideal S1x1 .f32)
    (y : Fin 2048) :
    Cert.KernelIdeal.Gen.out0_10 (F := Ideal) x0 x1 x2 x3 x4 x5 x6 x7 x8 x9 (ix2 y 0)
      = sqdiff (Ideal.ofBits .f32 0x00000000#32) (fun k => x0 (ix2 y k)) (fun k => x1 (ix2 y k)) (fun k => x2 (ix2 y k))
          (fun k j => x3 (ix2 k j)) (fun k j => x4 (ix2 k j)) (fun j => x5 (ix2 0 j)) (fun k j => x6 (ix2 k j))
          (fun j => x7 (ix2 0 j)) (fun k => x8 (ix2 k 0)) (x9 (ix2 0 0)) := by
  rw [out_eq, pay1_apply]
  simp only [pay7_apply, pay8_apply, pay4_apply, pay5_eq, pay6_eq]
  rfl

end Cert.Proof.KernelBody

end
-- ==== Proof.OutputArray.lean ====
/-
  From the kernel's blocks to its output array.

  The region's output is a column of 131072 loss terms written back in 64 blocks of 2048 rows: grid point `t` writes
  rows 2048·t … 2048·t + 2047, from rows 2048·t … of the three gathered arrays (the drug rows and the two target
  rows of every pair) and from the whole weight and bias arrays. Row `r` of block `t` is the squared difference of
  the two affinities of row 2048·t + r, so the blocks are the restrictions of ONE function of the arrays the region
  finds — `lossColumn` — and, the 64 blocks tiling the column, the column ends holding that function.
-/
import proofs.«179089_j49606872269326_2_alg».proof.Proof.Gen.KernelIdeal.Frame
import proofs.«179089_j49606872269326_2_alg».proof.Proof.Spec
import proofs.«179089_j49606872269326_2_alg».proof.Proof.KernelBody
import Idealize.ShloMosaic.Lib.Pipeline.Value
import Idealize.ShloMosaic.Lib.ValueIdx

set_option maxRecDepth 16384

noncomputable section

namespace Cert.Proof.OutputArray

open Idealize.ShloMosaic Idealize.ShloMosaic.TcCoe Idealize.SL.Sem Idealize.ShloMosaic.ValueIdx
open Idealize.ShloMosaic.Pipeline (Dat)
open Cert.KernelIdeal Cert.KernelIdeal.Gen Cert.Proof.PairScore

/-- The row of the column an index names. -/
def rowOfIdx (i : S131072x1.Idx) : Fin 131072 := ⟨(i 0).val, idx2_lt0 i⟩

/-- The loss term of every pair row, from the gathered drug rows `X0`, the gathered rows `X1`, `X2` of the two targets,
    the two halves `A`, `B` of the first layer's weights, and the biases and weights of the three layers. -/
def lossColumn (X0 X1 X2 : S131072x512.Idx → EReal) (A B : S512x128.Idx → EReal) (B1 : S1x128.Idx → EReal)
    (W2 : S128x64.Idx → EReal) (B2 : S1x64.Idx → EReal) (W3 : S64x1.Idx → EReal) (B3 : S1x1.Idx → EReal) :
    S131072x1.Idx → EReal := fun i =>
  sqdiff (Ideal.ofBits .f32 0x00000000#32) (fun k => X0 (ix2 (rowOfIdx i) k)) (fun k => X1 (ix2 (rowOfIdx i) k))
    (fun k => X2 (ix2 (rowOfIdx i) k)) (fun k j => A (ix2 k j)) (fun k j => B (ix2 k j)) (fun j => B1 (ix2 (0 : Fin 1) j))
    (fun k j => W2 (ix2 k j)) (fun j => B2 (ix2 (0 : Fin 1) j)) (fun k => W3 (ix2 k (0 : Fin 1))) (B3 (ix2 (0 : Fin 1) (0 : Fin 1)))

/-- The printed index maps, decided once over the 64 grid points: the three gathered arrays and the output move
    one block of rows per point; the weights and biases stay at their one block. -/
theorem index_facts : ∀ t : Fin cfg0.N, t.val < 64
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

variable (m : (ℓ : Loc nD τ sig) → Buf (Elt Ideal) ℓ) (c : Dev nD)

/-! ## Each window's block, read where it lies in its array -/

theorem drug_block (t : Fin cfg0.N) (p : Fin 2048) (k : Fin 512) (R : Fin 131072) (hR : R.val = t.val * 2048 + p.val) :
    iblk m c 0 t (ix2 p k) = V m c main_v11 (ix2 R k) := by
  show V m c main_v11 (((cfg0.win 0).blk t).view.emb (ix2 p k)) = _
  have f := index_facts t
  have h : ((cfg0.win 0).blk t).view.emb (ix2 p k) = ix2 R k := by
    funext a; apply Fin.ext
    match a with
    | ⟨0, _⟩ => show win0_0.index t (0 : Fin 2) * 2048 + 1 * p.val = R.val; omega
    | ⟨1, _⟩ => show win0_0.index t (1 : Fin 2) * 512 + 1 * k.val = k.val; omega
  rw [h]

theorem target1_block (t : Fin cfg0.N) (p : Fin 2048) (k : Fin 512) (R : Fin 131072) (hR : R.val = t.val * 2048 + p.val) :
    iblk m c 1 t (ix2 p k) = V m c main_v20 (ix2 R k) := by
  show V m c main_v20 (((cfg0.win 1).blk t).view.emb (ix2 p k)) = _
  have f := index_facts t
  have h : ((cfg0.win 1).blk t).view.emb (ix2 p k) = ix2 R k := by
    funext a; apply Fin.ext
    match a with
    | ⟨0, _⟩ => show win0_1.index t (0 : Fin 2) * 2048 + 1 * p.val = R.val; omega
    | ⟨1, _⟩ => show win0_1.index t (1 : Fin 2) * 512 + 1 * k.val = k.val; omega
  rw [h]

theorem target2_block (t : Fin cfg0.N) (p : Fin 2048) (k : Fin 512) (R : Fin 131072) (hR : R.val = t.val * 2048 + p.val) :
    iblk m c 2 t (ix2 p k) = V m c main_v29 (ix2 R k) := by
  show V m c main_v29 (((cfg0.win 2).blk t).view.emb (ix2 p k)) = _
  have f := index_facts t
  have h : ((cfg0.win 2).blk t).view.emb (ix2 p k) = ix2 R k := by
    funext a; apply Fin.ext
    match a with
    | ⟨0, _⟩ => show win0_2.index t (0 : Fin 2) * 2048 + 1 * p.val = R.val; omega
    | ⟨1, _⟩ => show win0_2.index t (1 : Fin 2) * 512 + 1 * k.val = k.val; omega
  rw [h]

theorem w1a_block (t : Fin cfg0.N) (k : Fin 512) (j : Fin 128) : iblk m c 3 t (ix2 k j) = V m c main_v32 (ix2 k j) := by
  show V m c main_v32 (((cfg0.win 3).blk t).view.emb (ix2 k j)) = _
  have f := index_facts t
  have h : ((cfg0.win 3).blk t).view.emb (ix2 k j) = ix2 k j := by
    funext a; apply Fin.ext
    match a with
    | ⟨0, _⟩ => show win0_3.index t (0 : Fin 2) * 512 + 1 * k.val = k.val; omega
    | ⟨1, _⟩ => show win0_3.index t (1 : Fin 2) * 128 + 1 * j.val = j.val; omega
  rw [h]

theorem w1b_block (t : Fin cfg0.N) (k : Fin 512) (j : Fin 128) : iblk m c 4 t (ix2 k j) = V m c main_v33 (ix2 k j) := by
  show V m c main_v33 (((cfg0.win 4).blk t).view.emb (ix2 k j)) = _
  have f := index_facts t
  have h : ((cfg0.win 4).blk t).view.emb (ix2 k j) = ix2 k j := by
    funext a; apply Fin.ext
    match a with
    | ⟨0, _⟩ => show win0_4.index t (0 : Fin 2) * 512 + 1 * k.val = k.val; omega
    | ⟨1, _⟩ => show win0_4.index t (1 : Fin 2) * 128 + 1 * j.val = j.val; omega
  rw [h]

theorem b1_block (t : Fin cfg0.N) (j : Fin 128) : iblk m c 5 t (ix2 (0 : Fin 1) j) = V m c main_v36 (ix2 (0 : Fin 1) j) := by
  show V m c main_v36 (((cfg0.win 5).blk t).view.emb (ix2 (0 : Fin 1) j)) = _
  have f := index_facts t
  have h : ((cfg0.win 5).blk t).view.emb (ix2 (0 : Fin 1) j) = ix2 (0 : Fin 1) j := by
    funext a; apply Fin.ext
    match a with
    | ⟨0, _⟩ => show win0_5.index t (0 : Fin 2) * 1 + 1 * 0 = 0; omega
    | ⟨1, _⟩ => show win0_5.index t (1 : Fin 2) * 128 + 1 * j.val = j.val; omega
  rw [h]

theorem w2_block (t : Fin cfg0.N) (k : Fin 128) (j : Fin 64) : iblk m c 6 t (ix2 k j) = V m c main_v34 (ix2 k j) := by
  show V m c main_v34 (((cfg0.win 6).blk t).view.emb (ix2 k j)) = _
  have f := index_facts t
  have h : ((cfg0.win 6).blk t).view.emb (ix2 k j) = ix2 k j := by
    funext a; apply Fin.ext
    match a with
    | ⟨0, _⟩ => show win0_6.index t (0 : Fin 2) * 128 + 1 * k.val = k.val; omega
    | ⟨1, _⟩ => show win0_6.index t (1 : Fin 2) * 64 + 1 * j.val = j.val; omega
  rw [h]

theorem b2_block (t : Fin cfg0.N) (j : Fin 64) : iblk m c 7 t (ix2 (0 : Fin 1) j) = V m c main_v37 (ix2 (0 : Fin 1) j) := by
  show V m c main_v37 (((cfg0.win 7).blk t).view.emb (ix2 (0 : Fin 1) j)) = _
  have f := index_facts t
  have h : ((cfg0.win 7).blk t).view.emb (ix2 (0 : Fin 1) j) = ix2 (0 : Fin 1) j := by
    funext a; apply Fin.ext
    match a with
    | ⟨0, _⟩ => show win0_7.index t (0 : Fin 2) * 1 + 1 * 0 = 0; omega
    | ⟨1, _⟩ => show win0_7.index t (1 : Fin 2) * 64 + 1 * j.val = j.val; omega
  rw [h]

theorem w3_block (t : Fin cfg0.N) (k : Fin 64) : iblk m c 8 t (ix2 k (0 : Fin 1)) = V m c main_v35 (ix2 k (0 : Fin 1)) := by
  show V m c main_v35 (((cfg0.win 8).blk t).view.emb (ix2 k (0 : Fin 1))) = _
  have f := index_facts t
  have h : ((cfg0.win 8).blk t).view.emb (ix2 k (0 : Fin 1)) = ix2 k (0 : Fin 1) := by
    funext a; apply Fin.ext
    match a with
    | ⟨0, _⟩ => show win0_8.index t (0 : Fin 2) * 64 + 1 * k.val = k.val; omega
    | ⟨1, _⟩ => show win0_8.index t (1 : Fin 2) * 1 + 1 * 0 = 0; omega
  rw [h]

theorem b3_block (t : Fin cfg0.N) : iblk m c 9 t (ix2 (0 : Fin 1) (0 : Fin 1)) = V m c main_v38 (ix2 (0 : Fin 1) (0 : Fin 1)) := by
  show V m c main_v38 (((cfg0.win 9).blk t).view.emb (ix2 (0 : Fin 1) (0 : Fin 1))) = _
  have f := index_facts t
  have h : ((cfg0.win 9).blk t).view.emb (ix2 (0 : Fin 1) (0 : Fin 1)) = ix2 (0 : Fin 1) (0 : Fin 1) := by
    funext a; apply Fin.ext
    match a with
    | ⟨0, _⟩ => show win0_9.index t (0 : Fin 2) * 1 + 1 * 0 = 0; omega
    | ⟨1, _⟩ => show win0_9.index t (1 : Fin 2) * 1 + 1 * 0 = 0; omega
  rw [h]

/-! ## What a point writes back -/

/-- The column as the region's arrays give it. -/
abbrev column : S131072x1.Idx → EReal :=
  lossColumn (V m c main_v11) (V m c main_v20) (V m c main_v29) (V m c main_v32) (V m c main_v33) (V m c main_v36)
    (V m c main_v34) (V m c main_v37) (V m c main_v35) (V m c main_v38)

/-- Row `p` of the block point `t` leaves is the column's function at row 2048·t + p. -/
theorem point_row (t : Fin cfg0.N) (p : Fin 2048) :
    out0_10 (F := Ideal) (iblk m c 0 t) (iblk m c 1 t) (iblk m c 2 t) (iblk m c 3 t) (iblk m c 4 t) (iblk m c 5 t) (iblk m c 6 t)
        (iblk m c 7 t) (iblk m c 8 t) (iblk m c 9 t) (ix2 p (0 : Fin 1))
      = column m c (((cfg0.win 10).blk t).view.emb (ix2 p (0 : Fin 1))) := by
  have f := index_facts t
  have hR : (rowOfIdx (((cfg0.win 10).blk t).view.emb (ix2 p (0 : Fin 1)))).val = t.val * 2048 + p.val := by
    show win0_10.index t (0 : Fin 2) * 2048 + 1 * p.val = _
    omega
  rw [KernelBody.out_apply]
  show _ = sqdiff _ _ _ _ _ _ _ _ _ _ _
  simp only [drug_block m c t p _ _ hR, target1_block m c t p _ _ hR, target2_block m c t p _ _ hR, w1a_block, w1b_block,
    b1_block, w2_block, b2_block, w3_block, b3_block]

/-- WHAT POINT `t` WRITES BACK is block `t` of the column's function. -/
theorem flushed_eq (t : Fin cfg0.N) :
    (dats m 0 c).flushed 10 t = ((cfg0.win 10).blk t).view.read (Elt Ideal) (column m c) := by
  show (cfg0.win 10).cut (grid0.coords t) ((dats m 0 c).after 10 t) = _
  rw [after0_10]
  funext y
  obtain ⟨p, q, rfl⟩ : ∃ (p : Fin 2048) (q : Fin 1), y = ix2 p q := ⟨y 0, y 1, eq_ix2 y⟩
  obtain rfl : q = 0 := Subsingleton.elim _ _
  exact point_row m c t p

/-! ## The blocks tile the column -/

/-- An index of the column is in point `t`'s block iff its row is one of the block's 2048 rows. -/
theorem mem_blk (t : Fin cfg0.N) (i : S131072x1.Idx) :
    i ∈ ((cfg0.win 10).blk t).view.set ↔ ∀ a : Fin 2, win0_10.index t a * S2048x1.size a ≤ (i a).val ∧ (i a).val < win0_10.index t a * S2048x1.size a + S2048x1.size a := by
  show i ∈ ((View.whole main_v39).slice (win0_10.rect t)).set ↔ _
  rw [View.set_slice_whole, Rect.mem_set_unit]
  exact Iff.rfl

/-- Every block index 0 … 63 is some point's. -/
theorem index_onto : ∀ q : Fin 64, ∃ t : Fin cfg0.N, win0_10.index t = ![q.val, 0] :=
  (by decide +kernel : ∀ q : Fin 64, ∃ t : Fin grid0.N, win0_10.index t = ![q.val, 0])

/-- Every row of the column is in the block of the point that covers it: row `r` in block `r / 2048`. -/
theorem cover (i : S131072x1.Idx) : ∃ t : Fin cfg0.N, (cfg0.win 10).flush t = true ∧ i ∈ ((cfg0.win 10).blk t).view.set := by
  have hi0 : (i 0).val < 131072 := idx2_lt0 i
  have hi1 : (i 1).val < 1 := idx2_lt1 i
  obtain ⟨t, ht⟩ := index_onto ⟨(i 0).val / 2048, by omega⟩
  have q0 : win0_10.index t (0 : Fin 2) = (i 0).val / 2048 := congrFun ht 0
  have q1 : win0_10.index t (1 : Fin 2) = 0 := congrFun ht 1
  refine ⟨t, flush0_10 t, ?_⟩
  rw [mem_blk]
  intro a
  match a with
  | ⟨0, _⟩ => show win0_10.index t (0 : Fin 2) * 2048 ≤ (i 0).val ∧ (i 0).val < win0_10.index t (0 : Fin 2) * 2048 + 2048; omega
  | ⟨1, _⟩ => show win0_10.index t (1 : Fin 2) * 1 ≤ (i 1).val ∧ (i 1).val < win0_10.index t (1 : Fin 2) * 1 + 1; omega

/-- THE COLUMN after the run: the loss term of every pair row, from the arrays the region finds. -/
theorem final : (dats m 0 c).arrAt 10 cfg0.N = column m c :=
  (dats m 0 c).arrAt_eq_of_cover 10 (column m c) (fun t _ => flushed_eq m c t) (cover)

end Cert.Proof.OutputArray

end
-- ==== Proof.KernelRun.lean ====
/-
  The idealized kernel's run, with its result named.

  Every weakly fair execution of the kernel's program terminates; it leaves the result buffer at the mean of the
  positive pairs' loss terms minus the mean of the negative pairs' loss terms — the two halves of the column of loss
  terms the region computes from the arrays it finds — and leaves every argument array as it was.
-/
import proofs.«179089_j49606872269326_2_alg».proof.Proof.Gen.KernelIdeal.Frame
import proofs.«179089_j49606872269326_2_alg».proof.Proof.HostAfter
import proofs.«179089_j49606872269326_2_alg».proof.Proof.OutputArray

noncomputable section

namespace Cert.Proof.KernelRun

open Idealize.ShloMosaic Idealize.ShloMosaic.TcCoe Idealize.SL.Sem
open Cert.KernelIdeal Cert.KernelIdeal.Gen

/-- The kernel's result on core `c`, from the launch memory: the host tail's `meanDiff` of the two halves of the
    region's column. -/
def result (m : (ℓ : Loc nD τ sig) → Buf (Elt Ideal) ℓ) (c : Dev nD) : Buf (Elt Ideal) ((c.tc : Thread nD τ).loc main_v47) :=
  HostAfter.meanDiff (HostAfter.upperHalf (OutputArray.column m c)) (HostAfter.lowerHalf (OutputArray.column m c))

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v47 (Pipeline.mem_restRefs_of main_v47 (by decide) (by decide))).trans
        (HostAfter.result_eq m c _ (OutputArray.final m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.Proof.KernelRun

end
-- ==== Proof.LibGatherRows.lean ====
/-
  The host's gather, for row gathers, read at an index.

  A ROW GATHER has start indices of shape [E, 1] holding one row number each; that number names the operand's
  axis 0, which is collapsed; the operand's remaining axes (none, or one axis of C columns) are taken whole. Result
  row a is then the operand's row (rowOf G a): the start index G (a, 0) read signed and clamped into [0, N - 1], as
  the gather clamps every start index so that the slice fits. So

    result (a)    = operand (rowOf G a)         (no columns)
    result (a, c) = operand (rowOf G a, c)      (C columns)

  for any sizes N (operand rows, positive), E (result rows), C (columns) and any index width. The lemmas are stated
  for the dimension numbers as a record built from any proof of their well-formedness (`dims1 wf`, `dims2 wf`); a
  program's own record of the same lists is that record, so they apply to it by unification.
-/
import Idealize.ShloMosaic.Lib.ValueIdx

noncomputable section

namespace Cert.GatherRows

open Idealize.ShloMosaic Idealize.ShloMosaic.ValueIdx

variable {α : Type} {N E C w : Nat}

/-- The operand row a start index names: read signed, clamped into [0, N - 1]. -/
def rowOf (hN : 0 < N) (G : IVec ⟨2, ![E, 1]⟩ w) (a : Fin E) : Fin N :=
  ⟨min (G (ix2 a 0)).toInt.toNat (N - 1), by omega⟩

/-- A start index that reads as a row number in range names that row. -/
theorem rowOf_eq (hN : 0 < N) (G : IVec ⟨2, ![E, 1]⟩ w) (a : Fin E) (r : Fin N) (h : (G (ix2 a 0)).toInt = (r.val : ℤ)) :
    rowOf hN G a = r := by
  apply Fin.ext
  have := r.isLt
  show min (G (ix2 a 0)).toInt.toNat (N - 1) = r.val
  rw [h]
  simp only [Int.toNat_natCast]
  omega

/-- The 1-D gather's dimension numbers, over any sizes. -/
abbrev dims1 (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row gather's dimension numbers, over any sizes. -/
abbrev dims2 (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-- THE 1-D GATHER READ AT a: the operand at the row the start index names. -/
theorem gather1_apply (hN : 0 < N) (wf) (x : (⟨1, ![N]⟩ : Shape).Idx → α) (G : IVec ⟨2, ![E, 1]⟩ w) (a : Fin E) :
    Host.gather (dims1 (N := N) (E := E) wf) x G (ix1 a) = x (ix1 (rowOf hN G a)) := by
  unfold Host.gather
  congr 1
  funext b
  obtain rfl : b = 0 := Subsingleton.elim _ _
  refine Fin.ext ?_
  show (dims1 (N := N) (E := E) wf).start (ix1 a) G 0 + (dims1 (N := N) (E := E) wf).batchCoord (ix1 a) 0
      + (dims1 (N := N) (E := E) wf).offCoord (ix1 a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims1 (N := N) (E := E) wf).startIndexMap from List.mem_singleton.mpr rfl)]
  have hsi : (dims1 (N := N) (E := E) wf).siIdx (ix1 a) ⟨List.idxOf (0 : Fin 1) (dims1 (N := N) (E := E) wf).startIndexMap,
      List.idxOf_lt_length_iff.2 (List.mem_singleton.mpr rfl)⟩ = ix2 a 0 := by
    funext c; refine Fin.ext ?_
    match c with
    | ⟨0, _⟩ => rfl
    | ⟨1, _⟩ => rfl
  rw [hsi]
  rfl

/-- THE ROW GATHER READ AT (a, c): the operand at the row the start index names, same column. -/
theorem gather2_apply (hN : 0 < N) (wf) (x : (⟨2, ![N, C]⟩ : Shape).Idx → α) (G : IVec ⟨2, ![E, 1]⟩ w) (a : Fin E) (c : Fin C) :
    Host.gather (dims2 (N := N) (E := E) (C := C) wf) x G (ix2 a c) = x (ix2 (rowOf hN G a) c) := by
  unfold Host.gather
  congr 1
  funext b
  refine Fin.ext ?_
  match b with
  | ⟨0, _⟩ =>
    -- the collapsed row axis: the clamped start index, no batching coordinate, no offset
    show (dims2 (N := N) (E := E) (C := C) wf).start (ix2 a c) G 0
        + (dims2 (N := N) (E := E) (C := C) wf).batchCoord (ix2 a c) 0
        + (dims2 (N := N) (E := E) (C := C) wf).offCoord (ix2 a c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 (N := N) (E := E) (C := C) wf).startIndexMap from List.mem_singleton.mpr rfl)]
    have hsi : (dims2 (N := N) (E := E) (C := C) wf).siIdx (ix2 a c)
        ⟨List.idxOf (0 : Fin 2) (dims2 (N := N) (E := E) (C := C) wf).startIndexMap,
          List.idxOf_lt_length_iff.2 (List.mem_singleton.mpr rfl)⟩ = ix2 a 0 := by
      funext e; refine Fin.ext ?_
      match e with
      | ⟨0, _⟩ => rfl
      | ⟨1, _⟩ => rfl
    rw [hsi]
    rfl
  | ⟨1, _⟩ =>
    -- the column axis, taken whole: start 0, no batching coordinate, the result's column as offset
    show (dims2 (N := N) (E := E) (C := C) wf).start (ix2 a c) G 1
        + (dims2 (N := N) (E := E) (C := C) wf).batchCoord (ix2 a c) 1
        + (dims2 (N := N) (E := E) (C := C) wf).offCoord (ix2 a c) 1 = c.val
    rw [GatherDims.batchCoord_eq_zero _ _ _ List.not_mem_nil]
    have hst : (dims2 (N := N) (E := E) (C := C) wf).start (ix2 a c) G 1 = 0 := by
      unfold GatherDims.start
      rw [dif_neg (by simp)]
    have hk : (1 : Fin 2) ∈ (dims2 (N := N) (E := E) (C := C) wf).sKept :=
      (GatherDims.mem_sKept _ _).mpr ⟨by simp, List.not_mem_nil⟩
    have hoff : (dims2 (N := N) (E := E) (C := C) wf).offCoord (ix2 a c) 1 = c.val := by
      unfold GatherDims.offCoord
      rw [dif_pos hk]
      rfl
    rw [hst, hoff]
    simp

end Cert.GatherRows

end
-- ==== Proof.HostBefore.lean ====
/-
  The arrays the region finds: the host's lines before the region, read at an index.

  Before the region the host narrows the two embedding tables, joins the two pair tables (65536 rows each) into one
  of 131072 rows, and for each of its three columns normalises the row numbers (a negative one counts from the end
  of the 10000 rows) and gathers the rows they name: the drug rows from the first table, the two target rows from
  the second. It cuts the first layer's weights into their upper and lower 512 rows, narrows the weights, and views
  each bias as a one-row array. On the extended reals a narrowing is the identity, so each array the region finds
  reads, at an index, an argument array at an index: a gathered row is the table's row `rowNo` of the pair's entry,
  the upper and lower halves are rows `lo k` and `hi k`, a bias row is the bias.
-/
import proofs.«179089_j49606872269326_2_alg».proof.Proof.Gen.KernelIdeal.Frame
import proofs.«179089_j49606872269326_2_alg».proof.Proof.Spec
import proofs.«179089_j49606872269326_2_alg».proof.Proof.LibGatherRows
import Idealize.ShloMosaic.Lib.StableHlo.Run
import Idealize.ShloMosaic.Lib.Pipeline.Value
import Idealize.ShloMosaic.Lib.ValueIdx
import Idealize.ShloMosaic.Lib.ValueLayout

noncomputable section

namespace Cert.Proof.HostBefore

open Idealize.ShloMosaic Idealize.ShloMosaic.TcCoe Idealize.SL.Sem Idealize.ShloMosaic.StableHlo Idealize.ShloMosaic.ValueIdx
open Cert.KernelIdeal Cert.KernelIdeal.Gen Cert.Proof.PairScore

variable (m : (ℓ : Loc nD τ sig) → Buf (Elt Ideal) ℓ) (c : Dev nD)

/-! ## The weights and biases: each array as one operation (or two) of an argument -/

theorem v32_eq : @Eq (FVec Ideal S512x128 .bf16) (V m c main_v32)
    (truncf .bf16 (extractStridedSlice S512x128 ![0, 0] (m (c, Proc.devRef .tc main_arg4)) slices_S1024x128_S512x128_0_0) bitsLt_bf16_f32) := by
  show StableHlo.after hostOps0 (fun b => m (c, b)) (Proc.devRef .tc main_v32) = _
  after_results

theorem v33_eq : @Eq (FVec Ideal S512x128 .bf16) (V m c main_v33)
    (truncf .bf16 (extractStridedSlice S512x128 ![512, 0] (m (c, Proc.devRef .tc main_arg4)) slices_S1024x128_S512x128_512_0) bitsLt_bf16_f32) := by
  show StableHlo.after hostOps0 (fun b => m (c, b)) (Proc.devRef .tc main_v33) = _
  after_results

theorem v34_eq : @Eq (FVec Ideal S128x64 .bf16) (V m c main_v34) (truncf .bf16 (m (c, Proc.devRef .tc main_arg6)) bitsLt_bf16_f32) := by
  show StableHlo.after hostOps0 (fun b => m (c, b)) (Proc.devRef .tc main_v34) = _
  after_results

theorem v35_eq : @Eq (FVec Ideal S64x1 .bf16) (V m c main_v35) (truncf .bf16 (m (c, Proc.devRef .tc main_arg8)) bitsLt_bf16_f32) := by
  show StableHlo.after hostOps0 (fun b => m (c, b)) (Proc.devRef .tc main_v35) = _
  after_results

theorem v36_eq : (V m c main_v36 : S1x128.Idx → EReal) = shapeCast S1x128 (m (c, Proc.devRef .tc main_arg5)) shapeCasts_S128_S1x128 := by
  show StableHlo.after hostOps0 (fun b => m (c, b)) (Proc.devRef .tc main_v36) = _
  after_results
  rfl

theorem v37_eq : (V m c main_v37 : S1x64.Idx → EReal) = shapeCast S1x64 (m (c, Proc.devRef .tc main_arg7)) shapeCasts_S64_S1x64 := by
  show StableHlo.after hostOps0 (fun b => m (c, b)) (Proc.devRef .tc main_v37) = _
  after_results
  rfl

theorem v38_eq : (V m c main_v38 : S1x1.Idx → EReal) = shapeCast S1x1 (m (c, Proc.devRef .tc main_arg9)) shapeCasts_S1_S1x1 := by
  show StableHlo.after hostOps0 (fun b => m (c, b)) (Proc.devRef .tc main_v38) = _
  after_results
  rfl

/-! ## The same, read at an index -/

/-- The upper 512 rows of the first layer's weights. -/
theorem w1a_apply (k : Fin 512) (j : Fin 128) :
    V m c main_v32 (ix2 k j) = m ((c.tc : Thread nD τ).loc main_arg4) (ix2 (lo k) j) := by
  refine (congrFun (v32_eq m c) (ix2 k j)).trans ?_
  rw [truncf_apply]
  exact extractStridedSlice_apply ![0, 0] _ slices_S1024x128_S512x128_0_0 (ix2 k j) (ix2 (lo k) j) (fun a => match a with
    | ⟨0, _⟩ => by show k.val = 0 + k.val; omega
    | ⟨1, _⟩ => by show j.val = 0 + j.val; omega)

/-- The lower 512 rows of the first layer's weights. -/
theorem w1b_apply (k : Fin 512) (j : Fin 128) :
    V m c main_v33 (ix2 k j) = m ((c.tc : Thread nD τ).loc main_arg4) (ix2 (hi k) j) := by
  refine (congrFun (v33_eq m c) (ix2 k j)).trans ?_
  rw [truncf_apply]
  exact extractStridedSlice_apply ![512, 0] _ slices_S1024x128_S512x128_512_0 (ix2 k j) (ix2 (hi k) j) (fun a => match a with
    | ⟨0, _⟩ => by show 512 + k.val = 512 + k.val; rfl
    | ⟨1, _⟩ => by show j.val = 0 + j.val; omega)

/-- The first layer's bias as one row. -/
theorem b1_apply (j : Fin 128) :
    V m c main_v36 (ix2 (0 : Fin 1) j) = m ((c.tc : Thread nD τ).loc main_arg5) (ix1 j) := by
  refine (congrFun (v36_eq m c) (ix2 (0 : Fin 1) j)).trans ?_
  exact shapeCast_a_1a_apply _ shapeCasts_S128_S1x128 0 j

/-- The second layer's weights. -/
theorem w2_apply (k : Fin 128) (j : Fin 64) :
    V m c main_v34 (ix2 k j) = m ((c.tc : Thread nD τ).loc main_arg6) (ix2 k j) :=
  congrFun (v34_eq m c) (ix2 k j)

/-- The second layer's bias as one row. -/
theorem b2_apply (j : Fin 64) :
    V m c main_v37 (ix2 (0 : Fin 1) j) = m ((c.tc : Thread nD τ).loc main_arg7) (ix1 j) := by
  refine (congrFun (v37_eq m c) (ix2 (0 : Fin 1) j)).trans ?_
  exact shapeCast_a_1a_apply _ shapeCasts_S64_S1x64 0 j

/-- The third layer's weights, one column. -/
theorem w3_apply (k : Fin 64) :
    V m c main_v35 (ix2 k (0 : Fin 1)) = m ((c.tc : Thread nD τ).loc main_arg8) (ix2 k (0 : Fin 1)) :=
  congrFun (v35_eq m c) (ix2 k (0 : Fin 1))

/-- The third layer's bias as a one-by-one array. -/
theorem b3_apply :
    V m c main_v38 (ix2 (0 : Fin 1) (0 : Fin 1)) = m ((c.tc : Thread nD τ).loc main_arg9) (ix1 (0 : Fin 1)) := by
  refine (congrFun (v38_eq m c) (ix2 (0 : Fin 1) (0 : Fin 1))).trans ?_
  exact shapeCast_a_1a_apply _ shapeCasts_S1_S1x1 0 0

/-! ## The gathered rows: the start indices -/

/-- The joined pair table: the first pair table's 65536 rows, then the second's. -/
def joined (A0 A1 : IVec S65536x3 32) : IVec S131072x3 32 :=
  concatenate S131072x3 0 [⟨S65536x3, A0⟩, ⟨S65536x3, A1⟩] concatenates_S65536x3_S65536x3_S131072x3_d0

/-- One column of a pair table (the slice at offsets `off`), as a vector of 131072 row numbers. -/
def column (off : Fin 2 → Nat) (h : S131072x3.Slices off S131072x1) (P : IVec S131072x3 32) : IVec S131072 32 :=
  shapeCast S131072 (extractStridedSlice S131072x1 off P h) shapeCasts_S131072x1_S131072

/-- The gather's start indices from one column of a pair table: each row number, 10000 added to it if it is negative,
    laid out as a one-column array. -/
def startIdx (off : Fin 2 → Nat) (h : S131072x3.Slices off S131072x1) (P : IVec S131072x3 32) : IVec S131072x1 32 :=
  broadcastInDim S131072x1 ![0] bcast_S131072_S131072x1_0
    (select (cmpi .slt (column off h P) (broadcastInDim S131072 ![] bcast_S_S131072 (constantI S_ 32 0#32)))
      (addi (column off h P) (broadcastInDim S131072 ![] bcast_S_S131072 (constantI S_ 32 10000#32)))
      (column off h P))

/-- Row `j` of the joined table, below 65536, is row `j` of the first pair table. -/
theorem joined_upper (A0 A1 : IVec S65536x3 32) (j : Fin 65536) (col : Fin 3) :
    joined A0 A1 (ix2 (⟨j.val, by omega⟩ : Fin 131072) col) = A0 (ix2 j col) := by
  unfold joined
  exact concatenate_pair_apply_left (t := S131072x3) 0 A0 A1 concatenates_S65536x3_S65536x3_S131072x3_d0
    (ix2 (⟨j.val, by omega⟩ : Fin 131072) col) rfl (ix2 j col) (fun b => match b with
      | ⟨0, _⟩ => rfl
      | ⟨1, _⟩ => rfl)

/-- Row `65536 + j` of the joined table is row `j` of the second pair table. -/
theorem joined_lower (A0 A1 : IVec S65536x3 32) (j : Fin 65536) (col : Fin 3) :
    joined A0 A1 (ix2 (⟨65536 + j.val, by omega⟩ : Fin 131072) col) = A1 (ix2 j col) := by
  unfold joined
  exact concatenate_pair_apply_right (t := S131072x3) 0 A0 A1 concatenates_S65536x3_S65536x3_S131072x3_d0
    (ix2 (⟨65536 + j.val, by omega⟩ : Fin 131072) col) rfl rfl (ix2 j col)
    (fun b hb => match b, hb with
      | ⟨0, _⟩, hb => absurd rfl hb
      | ⟨1, _⟩, _ => rfl)
    (by show j.val + 65536 = 65536 + j.val; omega)

/-- A column read at a row: the pair table's entry there. -/
theorem column_apply (off : Fin 2 → Nat) (h : S131072x3.Slices off S131072x1) (P : IVec S131072x3 32) (R : Fin 131072)
    (col : Fin 3) (h0 : off 0 = 0) (h1 : off 1 = col.val) : column off h P (ix1 R) = P (ix2 R col) := by
  unfold column
  refine (shapeCast_apply _ shapeCasts_S131072x1_S131072 (ix1 R) (ix2 R (0 : Fin 1)) (by
    rw [Shape.rowMajor_val_two, Shape.rowMajor_val_one]; show R.val * 1 + 0 = R.val; omega)).trans ?_
  exact extractStridedSlice_apply off P h (ix2 R (0 : Fin 1)) (ix2 R col) (fun a => match a with
    | ⟨0, _⟩ => by show R.val = off 0 + R.val; rw [h0]; omega
    | ⟨1, _⟩ => by show col.val = off 1 + 0; rw [h1]; rfl)

/-- A start index is the pair table's entry, normalised. -/
theorem startIdx_apply (off : Fin 2 → Nat) (h : S131072x3.Slices off S131072x1) (P : IVec S131072x3 32) (R : Fin 131072)
    (col : Fin 3) (h0 : off 0 = 0) (h1 : off 1 = col.val) :
    startIdx off h P (ix2 R (0 : Fin 1)) = wrap (P (ix2 R col)) := by
  unfold startIdx
  refine (broadcastInDim_apply _ bcast_S131072_S131072x1_0 _ (ix2 R (0 : Fin 1)) (ix1 R) (fun a => match a with
    | ⟨0, _⟩ => by show R.val = if (131072 : Nat) = 1 then 0 else R.val; rw [if_neg (by decide)])).trans ?_
  have hz : broadcastInDim S131072 ![] bcast_S_S131072 (constantI S_ 32 0#32) (ix1 R) = 0#32 :=
    broadcastInDim_apply _ bcast_S_S131072 _ (ix1 R) (fun a => a.elim0) (fun a => a.elim0)
  have ht : broadcastInDim S131072 ![] bcast_S_S131072 (constantI S_ 32 10000#32) (ix1 R) = 10000#32 :=
    broadcastInDim_apply _ bcast_S_S131072 _ (ix1 R) (fun a => a.elim0) (fun a => a.elim0)
  show Scalar.select (IntOp.cmpi .slt (column off h P (ix1 R)) (broadcastInDim S131072 ![] bcast_S_S131072 (constantI S_ 32 0#32) (ix1 R)))
      (IntOp.addi (column off h P (ix1 R)) (broadcastInDim S131072 ![] bcast_S_S131072 (constantI S_ 32 10000#32) (ix1 R)))
      (column off h P (ix1 R)) = _
  rw [hz, ht, column_apply off h P R col h0 h1]
  rfl

/-! ## The gathered rows: the gather -/

theorem gather_eq : gather_S10000x512_S131072x1_S131072x512_1_0_n_n_0_1_1512
    = GatherRows.dims2 (N := 10000) (E := 131072) (C := 512) gather_S10000x512_S131072x1_S131072x512_1_0_n_n_0_1_1512_wf := rfl

/-- A gathered row: where the start index is a normalised row number `v`, the table's row `rowNo v`. -/
theorem gathered_apply {α : Type} (T : S10000x512.Idx → α) (G : IVec S131072x1 32) (R : Fin 131072) (k : Fin 512) (v : BitVec 32)
    (hG : G (ix2 R (0 : Fin 1)) = wrap v) :
    Host.gather gather_S10000x512_S131072x1_S131072x512_1_0_n_n_0_1_1512 T G (ix2 R k) = T (ix2 (rowNo v) k) := by
  rw [gather_eq]
  refine (GatherRows.gather2_apply (N := 10000) (E := 131072) (C := 512) (by norm_num) _ T G R k).trans ?_
  have hr : GatherRows.rowOf (N := 10000) (by norm_num) G R = rowNo v :=
    Fin.ext (by show min (G (ix2 R 0)).toInt.toNat (10000 - 1) = min (wrap v).toInt.toNat (10000 - 1); rw [hG])
  rw [hr]

/-! ## The gathered rows: the three arrays -/

set_option maxHeartbeats 4000000 in
theorem v11_eq : @Eq (FVec Ideal S131072x512 .bf16) (V m c main_v11)
    (Host.gather gather_S10000x512_S131072x1_S131072x512_1_0_n_n_0_1_1512
      (truncf (F := Ideal) .bf16 (m (c, Proc.devRef .tc main_arg2)) bitsLt_bf16_f32)
      (startIdx ![0, 0] slices_S131072x3_S131072x1_0_0
        (joined (m (c, Proc.devRef .tc main_arg0)) (m (c, Proc.devRef .tc main_arg1))))) := by
  show StableHlo.after hostOps0 (fun b => m (c, b)) (Proc.devRef .tc main_v11) = _
  after_results_simp
  repeat (first | (rw [unary_result_ne]; rotate_left; decide))
  rfl

set_option maxHeartbeats 4000000 in
theorem v20_eq : @Eq (FVec Ideal S131072x512 .bf16) (V m c main_v20)
    (Host.gather gather_S10000x512_S131072x1_S131072x512_1_0_n_n_0_1_1512
      (truncf (F := Ideal) .bf16 (m (c, Proc.devRef .tc main_arg3)) bitsLt_bf16_f32)
      (startIdx ![0, 1] slices_S131072x3_S131072x1_0_1
        (joined (m (c, Proc.devRef .tc main_arg0)) (m (c, Proc.devRef .tc main_arg1))))) := by
  show StableHlo.after hostOps0 (fun b => m (c, b)) (Proc.devRef .tc main_v20) = _
  after_results_simp
  repeat (first | (rw [unary_result_ne]; rotate_left; decide))
  rfl

set_option maxHeartbeats 4000000 in
theorem v29_eq : @Eq (FVec Ideal S131072x512 .bf16) (V m c main_v29)
    (Host.gather gather_S10000x512_S131072x1_S131072x512_1_0_n_n_0_1_1512
      (truncf (F := Ideal) .bf16 (m (c, Proc.devRef .tc main_arg3)) bitsLt_bf16_f32)
      (startIdx ![0, 2] slices_S131072x3_S131072x1_0_2
        (joined (m (c, Proc.devRef .tc main_arg0)) (m (c, Proc.devRef .tc main_arg1))))) := by
  show StableHlo.after hostOps0 (fun b => m (c, b)) (Proc.devRef .tc main_v29) = _
  after_results_simp
  repeat (first | (rw [unary_result_ne]; rotate_left; decide))
  rfl

/-! ## The gathered rows read at a row of either half and a column

Row `j` of the upper half is the pair `j` of the first pair table, row `65536 + j` the pair `j` of the second; the row read is
the table's row `rowNo` of the pair's entry in the array's column (0 the drug, 1 and 2 the two targets). -/

/- The drug rows. -/
theorem drug_upper (j : Fin 65536) (k : Fin 512) :
    V m c main_v11 (ix2 (⟨j.val, by omega⟩ : Fin 131072) k)
      = m ((c.tc : Thread nD τ).loc main_arg2) (ix2 (rowNo (m ((c.tc : Thread nD τ).loc main_arg0) (ix2 j (0 : Fin 3)))) k) := by
  refine (congrFun (v11_eq m c) _).trans ?_
  exact gathered_apply _ _ _ k _
    ((startIdx_apply _ _ _ _ (0 : Fin 3) rfl rfl).trans (congrArg wrap (joined_upper _ _ j (0 : Fin 3))))

theorem drug_lower (j : Fin 65536) (k : Fin 512) :
    V m c main_v11 (ix2 (⟨65536 + j.val, by omega⟩ : Fin 131072) k)
      = m ((c.tc : Thread nD τ).loc main_arg2) (ix2 (rowNo (m ((c.tc : Thread nD τ).loc main_arg1) (ix2 j (0 : Fin 3)))) k) := by
  refine (congrFun (v11_eq m c) _).trans ?_
  exact gathered_apply _ _ _ k _
    ((startIdx_apply _ _ _ _ (0 : Fin 3) rfl rfl).trans (congrArg wrap (joined_lower _ _ j (0 : Fin 3))))

/- The first target's rows. -/
theorem target1_upper (j : Fin 65536) (k : Fin 512) :
    V m c main_v20 (ix2 (⟨j.val, by omega⟩ : Fin 131072) k)
      = m ((c.tc : Thread nD τ).loc main_arg3) (ix2 (rowNo (m ((c.tc : Thread nD τ).loc main_arg0) (ix2 j (1 : Fin 3)))) k) := by
  refine (congrFun (v20_eq m c) _).trans ?_
  exact gathered_apply _ _ _ k _
    ((startIdx_apply _ _ _ _ (1 : Fin 3) rfl rfl).trans (congrArg wrap (joined_upper _ _ j (1 : Fin 3))))

theorem target1_lower (j : Fin 65536) (k : Fin 512) :
    V m c main_v20 (ix2 (⟨65536 + j.val, by omega⟩ : Fin 131072) k)
      = m ((c.tc : Thread nD τ).loc main_arg3) (ix2 (rowNo (m ((c.tc : Thread nD τ).loc main_arg1) (ix2 j (1 : Fin 3)))) k) := by
  refine (congrFun (v20_eq m c) _).trans ?_
  exact gathered_apply _ _ _ k _
    ((startIdx_apply _ _ _ _ (1 : Fin 3) rfl rfl).trans (congrArg wrap (joined_lower _ _ j (1 : Fin 3))))

/- The second target's rows. -/
theorem target2_upper (j : Fin 65536) (k : Fin 512) :
    V m c main_v29 (ix2 (⟨j.val, by omega⟩ : Fin 131072) k)
      = m ((c.tc : Thread nD τ).loc main_arg3) (ix2 (rowNo (m ((c.tc : Thread nD τ).loc main_arg0) (ix2 j (2 : Fin 3)))) k) := by
  refine (congrFun (v29_eq m c) _).trans ?_
  exact gathered_apply _ _ _ k _
    ((startIdx_apply _ _ _ _ (2 : Fin 3) rfl rfl).trans (congrArg wrap (joined_upper _ _ j (2 : Fin 3))))

theorem target2_lower (j : Fin 65536) (k : Fin 512) :
    V m c main_v29 (ix2 (⟨65536 + j.val, by omega⟩ : Fin 131072) k)
      = m ((c.tc : Thread nD τ).loc main_arg3) (ix2 (rowNo (m ((c.tc : Thread nD τ).loc main_arg1) (ix2 j (2 : Fin 3)))) k) := by
  refine (congrFun (v29_eq m c) _).trans ?_
  exact gathered_apply _ _ _ k _
    ((startIdx_apply _ _ _ _ (2 : Fin 3) rfl rfl).trans (congrArg wrap (joined_lower _ _ j (2 : Fin 3))))

end Cert.Proof.HostBefore

end
-- ==== Proof.LibConcatAt.lean ====
/-
  Matrices with the same number of rows laid side by side, read at an index known by its coordinates' values.

  Two pieces `x₁ : [n, a]`, `x₂ : [n, b]` joined along the columns into `[n, c]`: at an index whose row is `r` and
  whose column is `k < a` the joined array is `x₁ (r, k)`; at column `a + k` with `k < b` it is `x₂ (r, k)`.
  Three pieces `[n, a0]`, `[n, a1]`, `[n, a2]`: piece `p` starts at the sum of the extents before it, so columns
  `k`, `a0 + k`, `a0 + a1 + k` read pieces 0, 1, 2 at `(r, k)`.
  The index is ANY index of the joined shape with its two coordinates given as equations between naturals: the form in
  which a contraction's operand index arrives.
-/
import Idealize.ShloMosaic.Lib.ValueIdx
import Idealize.ShloMosaic.Lib.Pipeline.Value

noncomputable section

namespace Cert.Proof.ConcatAt

open Idealize.ShloMosaic Idealize.ShloMosaic.ValueIdx

variable {α : Type}

/-- Two pieces, a column of the left one. -/
theorem pair_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin a) (hr : (j 0).val = r.val) (hk : (j 1).val = k.val) :
    concatenate ⟨2, ![n, c]⟩ (1 : Fin 2) [⟨⟨2, ![n, a]⟩, x₁⟩, ⟨⟨2, ![n, b]⟩, x₂⟩] h j = x₁ (ix2 r k) :=
  concatenate_pair_apply_left (1 : Fin 2) x₁ x₂ h j rfl (ix2 r k) (fun bx => by
    match bx with
    | ⟨0, _⟩ => exact hr.symm
    | ⟨1, _⟩ => exact hk.symm)

/-- Two pieces, a column of the right one. -/
theorem pair_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin b) (hr : (j 0).val = r.val) (hk : (j 1).val = a + k.val) :
    concatenate ⟨2, ![n, c]⟩ (1 : Fin 2) [⟨⟨2, ![n, a]⟩, x₁⟩, ⟨⟨2, ![n, b]⟩, x₂⟩] h j = x₂ (ix2 r k) :=
  concatenate_pair_apply_right (1 : Fin 2) x₁ x₂ h j rfl rfl (ix2 r k) (fun bx hb => by
    match bx with
    | ⟨0, _⟩ => exact hr.symm
    | ⟨1, _⟩ => exact absurd rfl hb)
    (by show k.val + a = (j 1).val; omega)

/-- Three pieces, a column of piece 0. -/
theorem three_0 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a0) (hr : (j 0).val = r.val) (hk : (j 1).val = k.val) :
    concatenate ⟨2, ![n, c]⟩ (1 : Fin 2) [⟨⟨2, ![n, a0]⟩, x0⟩, ⟨⟨2, ![n, a1]⟩, x1⟩, ⟨⟨2, ![n, a2]⟩, x2⟩] h j = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    0 (by simp) ⟨2, ![n, a0]⟩ x0 rfl rfl 0 (by simp) (ix2 r k) (fun bx hb => by
      match bx with
      | ⟨0, _⟩ => exact hr.symm
      | ⟨1, _⟩ => exact absurd rfl hb) (by show 0 + k.val = (j 1).val; omega)

/-- Three pieces, a column of piece 1. -/
theorem three_1 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a1) (hr : (j 0).val = r.val) (hk : (j 1).val = a0 + k.val) :
    concatenate ⟨2, ![n, c]⟩ (1 : Fin 2) [⟨⟨2, ![n, a0]⟩, x0⟩, ⟨⟨2, ![n, a1]⟩, x1⟩, ⟨⟨2, ![n, a2]⟩, x2⟩] h j = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    1 (by simp) ⟨2, ![n, a1]⟩ x1 rfl rfl a0 (by simp) (ix2 r k) (fun bx hb => by
      match bx with
      | ⟨0, _⟩ => exact hr.symm
      | ⟨1, _⟩ => exact absurd rfl hb) (by show a0 + k.val = (j 1).val; omega)

/-- Three pieces, a column of piece 2. -/
theorem three_2 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a2) (hr : (j 0).val = r.val) (hk : (j 1).val = a0 + a1 + k.val) :
    concatenate ⟨2, ![n, c]⟩ (1 : Fin 2) [⟨⟨2, ![n, a0]⟩, x0⟩, ⟨⟨2, ![n, a1]⟩, x1⟩, ⟨⟨2, ![n, a2]⟩, x2⟩] h j = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    2 (by simp) ⟨2, ![n, a2]⟩ x2 rfl rfl (a0 + a1) (by simp) (ix2 r k) (fun bx hb => by
      match bx with
      | ⟨0, _⟩ => exact hr.symm
      | ⟨1, _⟩ => exact absurd rfl hb) (by show a0 + a1 + k.val = (j 1).val; omega)

end Cert.Proof.ConcatAt

end
-- ==== Proof.RefScore.lean ====
/-
  The reference's loss term of one pair, read at an index.

  For pair row j the reference takes the drug index and the two target indices from row j of the pair array,
  normalises each (a negative index counts from the end of the table), gathers the drug's row and the two targets'
  rows, joins the drug's row with a target's row into one row of 1024 entries, and sends it through the three layers;
  the loss term is the squared difference of the two scores. Read at an index this is the function
  `PairScore.pairRow` of the argument arrays: each gather reads the table at the row the normalised index names, the
  joined row contracted with the first layer's weights is the sum of the two half contractions, and every other
  operation acts entry by entry.
-/
import proofs.«179089_j49606872269326_2_alg».proof.Proof.Gen.ReferenceIdeal.Read
import proofs.«179089_j49606872269326_2_alg».proof.Proof.Spec
import proofs.«179089_j49606872269326_2_alg».proof.Proof.LibGatherRows
import proofs.«179089_j49606872269326_2_alg».proof.Proof.LibConcatAt
import Idealize.ShloMosaic.Lib.Pipeline.Value
import Idealize.ShloMosaic.Lib.ValueIdx
import Idealize.ShloMosaic.PureOps.Ideal.Laws

noncomputable section

open scoped BigOperators

namespace Cert.Proof.RefScore

open Idealize.ShloMosaic Idealize.ShloMosaic.ValueIdx Cert.ReferenceIdeal Cert.ReferenceIdeal.Read Cert.Proof.PairScore

/-! ## The gathered rows -/

/-- A row gather from a table of 10000 rows by 512 whose start index at row `a` is the normalised index `wrap v`
    reads the table's row `rowNo v`. -/
theorem gather_row (x : (⟨S10000x512, .f32⟩ : BufTy).Contents (Elt Ideal)) (G : (⟨S65536x1, .i32⟩ : BufTy).Contents (Elt Ideal))
    (a : Fin 65536) (c : Fin 512) (v : BitVec 32) (h : G (ix2 a 0) = wrap v) :
    Host.gather gather_S10000x512_S65536x1_S65536x512_1_0_n_n_0_1_1512 x G (ix2 a c) = x (ix2 (rowNo v) c) := by
  refine (GatherRows.gather2_apply (N := 10000) (E := 65536) (C := 512) (by decide : 0 < 10000)
    _ x G a c).trans ?_
  refine congrArg (fun r : Fin 10000 => x (ix2 r c)) (Fin.ext ?_)
  show min (G (ix2 a 0)).toInt.toNat (10000 - 1) = min (wrap v).toInt.toNat (10000 - 1)
  rw [h]

/-- The start indices of the drug rows' gather: the normalised first entry of the pair row. -/
theorem v7_at (x0 : (⟨S65536x3, .i32⟩ : BufTy).Contents (Elt Ideal)) (a : Fin 65536) :
    val_main_v7 (F := Ideal) x0 (ix2 a 0) = wrap (x0 (ix2 a 0)) := by
  have e : idx_main_v0 (idx_main_v1 (idx_main_v7 (ix2 a (0 : Fin 1)))) = ix2 a (0 : Fin 3) := by
    funext b
    refine Fin.ext ?_
    match b with
    | ⟨0, _⟩ => exact Nat.div_one _
    | ⟨1, _⟩ => rfl
  rw [val_main_v7_apply, val_main_v6_apply, val_main_v3_apply, val_main_v5_apply, val_main_v1_apply, val_main_v0_apply,
    val_main_v2_apply, val_main_v4_apply, val_main_c_apply, val_main_c_0_apply, e]
  rfl

/-- The start indices of the first target rows' gather: the normalised second entry of the pair row. -/
theorem v16_at (x0 : (⟨S65536x3, .i32⟩ : BufTy).Contents (Elt Ideal)) (a : Fin 65536) :
    val_main_v16 (F := Ideal) x0 (ix2 a 0) = wrap (x0 (ix2 a 1)) := by
  have e : idx_main_v9 (idx_main_v10 (idx_main_v16 (ix2 a (0 : Fin 1)))) = ix2 a (1 : Fin 3) := by
    funext b
    refine Fin.ext ?_
    match b with
    | ⟨0, _⟩ => exact Nat.div_one _
    | ⟨1, _⟩ => rfl
  rw [val_main_v16_apply, val_main_v15_apply, val_main_v12_apply, val_main_v14_apply, val_main_v10_apply, val_main_v9_apply,
    val_main_v11_apply, val_main_v13_apply, val_main_c_1_apply, val_main_c_2_apply, e]
  rfl

/-- The start indices of the second target rows' gather: the normalised third entry of the pair row. -/
theorem v25_at (x0 : (⟨S65536x3, .i32⟩ : BufTy).Contents (Elt Ideal)) (a : Fin 65536) :
    val_main_v25 (F := Ideal) x0 (ix2 a 0) = wrap (x0 (ix2 a 2)) := by
  have e : idx_main_v18 (idx_main_v19 (idx_main_v25 (ix2 a (0 : Fin 1)))) = ix2 a (2 : Fin 3) := by
    funext b
    refine Fin.ext ?_
    match b with
    | ⟨0, _⟩ => exact Nat.div_one _
    | ⟨1, _⟩ => rfl
  rw [val_main_v25_apply, val_main_v24_apply, val_main_v21_apply, val_main_v23_apply, val_main_v19_apply, val_main_v18_apply,
    val_main_v20_apply, val_main_v22_apply, val_main_c_3_apply, val_main_c_4_apply, e]
  rfl

/-- The gathered drug rows. -/
theorem v8_at (x0 : (⟨S65536x3, .i32⟩ : BufTy).Contents (Elt Ideal)) (x2 : (⟨S10000x512, .f32⟩ : BufTy).Contents (Elt Ideal)) (a : Fin 65536) (c : Fin 512) :
    val_main_v8 (F := Ideal) x0 x2 (ix2 a c) = x2 (ix2 (rowNo (x0 (ix2 a 0))) c) :=
  gather_row x2 (val_main_v7 (F := Ideal) x0) a c _ (v7_at x0 a)

/-- The gathered rows of the first target. -/
theorem v17_at (x0 : (⟨S65536x3, .i32⟩ : BufTy).Contents (Elt Ideal)) (x3 : (⟨S10000x512, .f32⟩ : BufTy).Contents (Elt Ideal)) (a : Fin 65536) (c : Fin 512) :
    val_main_v17 (F := Ideal) x0 x3 (ix2 a c) = x3 (ix2 (rowNo (x0 (ix2 a 1))) c) :=
  gather_row x3 (val_main_v16 (F := Ideal) x0) a c _ (v16_at x0 a)

/-- The gathered rows of the second target. -/
theorem v26_at (x0 : (⟨S65536x3, .i32⟩ : BufTy).Contents (Elt Ideal)) (x3 : (⟨S10000x512, .f32⟩ : BufTy).Contents (Elt Ideal)) (a : Fin 65536) (c : Fin 512) :
    val_main_v26 (F := Ideal) x0 x3 (ix2 a c) = x3 (ix2 (rowNo (x0 (ix2 a 2))) c) :=
  gather_row x3 (val_main_v25 (F := Ideal) x0) a c _ (v25_at x0 a)

/-! ## Where the contractions and the bias broadcasts read their operands -/

theorem lidx28_lo (j : Fin 65536) (c : Fin 128) (k : Fin 512) :
    ((lidx_main_v28 (ix2 j c) (lo k)) 0).val = j.val ∧ ((lidx_main_v28 (ix2 j c) (lo k)) 1).val = k.val := ⟨rfl, rfl⟩

theorem lidx28_hi (j : Fin 65536) (c : Fin 128) (k : Fin 512) :
    ((lidx_main_v28 (ix2 j c) (hi k)) 0).val = j.val ∧ ((lidx_main_v28 (ix2 j c) (hi k)) 1).val = 512 + k.val := ⟨rfl, rfl⟩

theorem ridx28 (j : Fin 65536) (c : Fin 128) (k : Fin 1024) : ridx_main_v28 (ix2 j c) k = ix2 k c :=
  funext fun b => Fin.ext (by match b with | ⟨0, _⟩ => rfl | ⟨1, _⟩ => rfl)

theorem lidx33 (j : Fin 65536) (c : Fin 64) (k : Fin 128) : lidx_main_v33 (ix2 j c) k = ix2 j k :=
  funext fun b => Fin.ext (by match b with | ⟨0, _⟩ => rfl | ⟨1, _⟩ => rfl)

theorem ridx33 (j : Fin 65536) (c : Fin 64) (k : Fin 128) : ridx_main_v33 (ix2 j c) k = ix2 k c :=
  funext fun b => Fin.ext (by match b with | ⟨0, _⟩ => rfl | ⟨1, _⟩ => rfl)

theorem lidx38 (j : Fin 65536) (c : Fin 1) (k : Fin 64) : lidx_main_v38 (ix2 j c) k = ix2 j k :=
  funext fun b => Fin.ext (by match b with | ⟨0, _⟩ => rfl | ⟨1, _⟩ => rfl)

theorem ridx38 (j : Fin 65536) (c : Fin 1) (k : Fin 64) : ridx_main_v38 (ix2 j c) k = ix2 k c :=
  funext fun b => Fin.ext (by match b with | ⟨0, _⟩ => rfl | ⟨1, _⟩ => rfl)

theorem bias1_idx (j : Fin 65536) (c : Fin 128) : idx_main_v29 (idx_main_v30 (ix2 j c)) = ix1 c :=
  funext fun b => Fin.ext (by match b with | ⟨0, _⟩ => rfl)

theorem bias2_idx (j : Fin 65536) (c : Fin 64) : idx_main_v34 (idx_main_v35 (ix2 j c)) = ix1 c :=
  funext fun b => Fin.ext (by match b with | ⟨0, _⟩ => rfl)

theorem bias3_idx (j : Fin 65536) (c : Fin 1) : idx_main_v39 (idx_main_v40 (ix2 j c)) = ix1 0 :=
  funext fun b => Fin.ext (by match b with | ⟨0, _⟩ => rfl)

theorem flat_idx (j : Fin 65536) : idx_main_v42 (ix1 j) = ix2 j 0 :=
  funext fun b => Fin.ext (by match b with | ⟨0, _⟩ => exact Nat.div_one _ | ⟨1, _⟩ => rfl)

/-! ## The first affinity: the drug's row joined with the first target's row -/

/-- The left half of the joined row is the drug's row. -/
theorem v27_lo (x0 : (⟨S65536x3, .i32⟩ : BufTy).Contents (Elt Ideal)) (x2 x3 : (⟨S10000x512, .f32⟩ : BufTy).Contents (Elt Ideal)) (j : Fin 65536) (c : Fin 128) (k : Fin 512) :
    val_main_v27 (F := Ideal) x0 x2 x3 (lidx_main_v28 (ix2 j c) (lo k)) = x2 (ix2 (rowNo (x0 (ix2 j 0))) k) := by
  unfold val_main_v27
  exact (ConcatAt.pair_left (val_main_v8 (F := Ideal) x0 x2) (val_main_v17 (F := Ideal) x0 x3)
    _ (lidx_main_v28 (ix2 j c) (lo k)) j k rfl rfl).trans (v8_at x0 x2 j k)

/-- The right half of the joined row is the first target's row. -/
theorem v27_hi (x0 : (⟨S65536x3, .i32⟩ : BufTy).Contents (Elt Ideal)) (x2 x3 : (⟨S10000x512, .f32⟩ : BufTy).Contents (Elt Ideal)) (j : Fin 65536) (c : Fin 128) (k : Fin 512) :
    val_main_v27 (F := Ideal) x0 x2 x3 (lidx_main_v28 (ix2 j c) (hi k)) = x3 (ix2 (rowNo (x0 (ix2 j 1))) k) := by
  unfold val_main_v27
  exact (ConcatAt.pair_right (val_main_v8 (F := Ideal) x0 x2) (val_main_v17 (F := Ideal) x0 x3)
    _ (lidx_main_v28 (ix2 j c) (hi k)) j k rfl rfl).trans (v17_at x0 x3 j k)

/-- The first layer's contraction of the joined row: the drug's half plus the target's half. -/
theorem v28_at (x0 : (⟨S65536x3, .i32⟩ : BufTy).Contents (Elt Ideal)) (x2 x3 : (⟨S10000x512, .f32⟩ : BufTy).Contents (Elt Ideal)) (x4 : (⟨S1024x128, .f32⟩ : BufTy).Contents (Elt Ideal)) (j : Fin 65536) (c : Fin 128) :
    val_main_v28 (F := Ideal) x0 x2 x3 x4 (ix2 j c)
      = ∑ k : Fin 512, x2 (ix2 (rowNo (x0 (ix2 j 0))) k) * x4 (ix2 (lo k) c)
        + ∑ k : Fin 512, x3 (ix2 (rowNo (x0 (ix2 j 1))) k) * x4 (ix2 (hi k) c) := by
  refine (val_main_v28_apply x0 x2 x3 x4 (ix2 j c)).trans ?_
  exact joined_contraction (fun k => val_main_v27 (F := Ideal) x0 x2 x3 (lidx_main_v28 (ix2 j c) k))
    (fun k => x4 (ridx_main_v28 (ix2 j c) k))
    (fun k => x2 (ix2 (rowNo (x0 (ix2 j 0))) k)) (fun k => x3 (ix2 (rowNo (x0 (ix2 j 1))) k))
    (fun k => x4 (ix2 (lo k) c)) (fun k => x4 (ix2 (hi k) c))
    (fun k => v27_lo x0 x2 x3 j c k) (fun k => v27_hi x0 x2 x3 j c k)
    (fun k => congrArg x4 (ridx28 j c (lo k))) (fun k => congrArg x4 (ridx28 j c (hi k)))

/-- The first hidden layer. -/
theorem v32_at (x0 : (⟨S65536x3, .i32⟩ : BufTy).Contents (Elt Ideal)) (x2 x3 : (⟨S10000x512, .f32⟩ : BufTy).Contents (Elt Ideal)) (x4 : (⟨S1024x128, .f32⟩ : BufTy).Contents (Elt Ideal)) (x5 : (⟨S128, .f32⟩ : BufTy).Contents (Elt Ideal)) (j : Fin 65536) (c : Fin 128) :
    val_main_v32 (F := Ideal) x0 x2 x3 x4 x5 (ix2 j c)
      = hidden1 (Ideal.ofBits .f32 0x00000000#32) (fun k => x2 (ix2 (rowNo (x0 (ix2 j 0))) k))
          (fun k => x3 (ix2 (rowNo (x0 (ix2 j 1))) k)) (fun k n => x4 (ix2 (lo k) n)) (fun k n => x4 (ix2 (hi k) n))
          (fun n => x5 (ix1 n)) c := by
  rw [val_main_v32_apply, val_main_v31_apply, v28_at, val_main_v30_apply, val_main_v29_apply, val_main_call0_v0_apply,
    val_main_call0_cst_apply, bias1_idx]
  rfl

/-- The second hidden layer. -/
theorem v37_at (x0 : (⟨S65536x3, .i32⟩ : BufTy).Contents (Elt Ideal)) (x2 x3 : (⟨S10000x512, .f32⟩ : BufTy).Contents (Elt Ideal)) (x4 : (⟨S1024x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (j : Fin 65536) (c : Fin 64) :
    val_main_v37 (F := Ideal) x0 x2 x3 x4 x5 x6 x7 (ix2 j c)
      = hidden2 (Ideal.ofBits .f32 0x00000000#32)
          (hidden1 (Ideal.ofBits .f32 0x00000000#32) (fun k => x2 (ix2 (rowNo (x0 (ix2 j 0))) k))
            (fun k => x3 (ix2 (rowNo (x0 (ix2 j 1))) k)) (fun k n => x4 (ix2 (lo k) n)) (fun k n => x4 (ix2 (hi k) n))
            (fun n => x5 (ix1 n)))
          (fun k n => x6 (ix2 k n)) (fun n => x7 (ix1 n)) c := by
  rw [val_main_v37_apply, val_main_v36_apply, val_main_v33_apply, val_main_v35_apply, val_main_v34_apply,
    val_main_call1_v0_apply, val_main_call1_cst_apply, bias2_idx]
  rw [Finset.sum_congr rfl fun k _ => congrArg₂ (· * ·)
    ((congrArg (val_main_v32 (F := Ideal) x0 x2 x3 x4 x5) (lidx33 j c k)).trans (v32_at x0 x2 x3 x4 x5 j k))
    (congrArg x6 (ridx33 j c k))]
  rfl

/-- The score before flattening: the third layer. -/
theorem v41_at (x0 : (⟨S65536x3, .i32⟩ : BufTy).Contents (Elt Ideal)) (x2 x3 : (⟨S10000x512, .f32⟩ : BufTy).Contents (Elt Ideal)) (x4 : (⟨S1024x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (j : Fin 65536) (c : Fin 1) :
    val_main_v41 (F := Ideal) x0 x2 x3 x4 x5 x6 x7 x8 x9 (ix2 j c)
      = affinity (Ideal.ofBits .f32 0x00000000#32) (fun k => x2 (ix2 (rowNo (x0 (ix2 j 0))) k))
          (fun k => x3 (ix2 (rowNo (x0 (ix2 j 1))) k)) (fun k n => x4 (ix2 (lo k) n)) (fun k n => x4 (ix2 (hi k) n))
          (fun n => x5 (ix1 n)) (fun k n => x6 (ix2 k n)) (fun n => x7 (ix1 n)) (fun k => x8 (ix2 k 0)) (x9 (ix1 0)) := by
  obtain rfl : c = 0 := Subsingleton.elim _ _
  rw [val_main_v41_apply, val_main_v38_apply, val_main_v40_apply, val_main_v39_apply, bias3_idx]
  rw [Finset.sum_congr rfl fun k _ => congrArg₂ (· * ·)
    ((congrArg (val_main_v37 (F := Ideal) x0 x2 x3 x4 x5 x6 x7) (lidx38 j 0 k)).trans (v37_at x0 x2 x3 x4 x5 x6 x7 j k))
    (congrArg x8 (ridx38 j 0 k))]
  rfl

/-- The first affinity of pair row `j`. -/
theorem v42_at (x0 : (⟨S65536x3, .i32⟩ : BufTy).Contents (Elt Ideal)) (x2 x3 : (⟨S10000x512, .f32⟩ : BufTy).Contents (Elt Ideal)) (x4 : (⟨S1024x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (j : Fin 65536) :
    val_main_v42 (F := Ideal) x0 x2 x3 x4 x5 x6 x7 x8 x9 (ix1 j)
      = affinity (Ideal.ofBits .f32 0x00000000#32) (fun k => x2 (ix2 (rowNo (x0 (ix2 j 0))) k))
          (fun k => x3 (ix2 (rowNo (x0 (ix2 j 1))) k)) (fun k n => x4 (ix2 (lo k) n)) (fun k n => x4 (ix2 (hi k) n))
          (fun n => x5 (ix1 n)) (fun k n => x6 (ix2 k n)) (fun n => x7 (ix1 n)) (fun k => x8 (ix2 k 0)) (x9 (ix1 0)) := by
  rw [val_main_v42_apply, flat_idx]
  exact v41_at x0 x2 x3 x4 x5 x6 x7 x8 x9 j 0

/-! ## The second affinity: the drug's row joined with the second target's row

The same operations once more, under their own names, with the second target's rows in the right half. -/

theorem ridx44 (j : Fin 65536) (c : Fin 128) (k : Fin 1024) : ridx_main_v44 (ix2 j c) k = ix2 k c :=
  funext fun b => Fin.ext (by match b with | ⟨0, _⟩ => rfl | ⟨1, _⟩ => rfl)

theorem lidx49 (j : Fin 65536) (c : Fin 64) (k : Fin 128) : lidx_main_v49 (ix2 j c) k = ix2 j k :=
  funext fun b => Fin.ext (by match b with | ⟨0, _⟩ => rfl | ⟨1, _⟩ => rfl)

theorem ridx49 (j : Fin 65536) (c : Fin 64) (k : Fin 128) : ridx_main_v49 (ix2 j c) k = ix2 k c :=
  funext fun b => Fin.ext (by match b with | ⟨0, _⟩ => rfl | ⟨1, _⟩ => rfl)

theorem lidx54 (j : Fin 65536) (c : Fin 1) (k : Fin 64) : lidx_main_v54 (ix2 j c) k = ix2 j k :=
  funext fun b => Fin.ext (by match b with | ⟨0, _⟩ => rfl | ⟨1, _⟩ => rfl)

theorem ridx54 (j : Fin 65536) (c : Fin 1) (k : Fin 64) : ridx_main_v54 (ix2 j c) k = ix2 k c :=
  funext fun b => Fin.ext (by match b with | ⟨0, _⟩ => rfl | ⟨1, _⟩ => rfl)

theorem bias1_idx' (j : Fin 65536) (c : Fin 128) : idx_main_v45 (idx_main_v46 (ix2 j c)) = ix1 c :=
  funext fun b => Fin.ext (by match b with | ⟨0, _⟩ => rfl)

theorem bias2_idx' (j : Fin 65536) (c : Fin 64) : idx_main_v50 (idx_main_v51 (ix2 j c)) = ix1 c :=
  funext fun b => Fin.ext (by match b with | ⟨0, _⟩ => rfl)

theorem bias3_idx' (j : Fin 65536) (c : Fin 1) : idx_main_v55 (idx_main_v56 (ix2 j c)) = ix1 0 :=
  funext fun b => Fin.ext (by match b with | ⟨0, _⟩ => rfl)

theorem flat_idx' (j : Fin 65536) : idx_main_v58 (ix1 j) = ix2 j 0 :=
  funext fun b => Fin.ext (by match b with | ⟨0, _⟩ => exact Nat.div_one _ | ⟨1, _⟩ => rfl)

/-- The left half of the second joined row is the drug's row. -/
theorem v43_lo (x0 : (⟨S65536x3, .i32⟩ : BufTy).Contents (Elt Ideal)) (x2 x3 : (⟨S10000x512, .f32⟩ : BufTy).Contents (Elt Ideal)) (j : Fin 65536) (c : Fin 128) (k : Fin 512) :
    val_main_v43 (F := Ideal) x0 x2 x3 (lidx_main_v44 (ix2 j c) (lo k)) = x2 (ix2 (rowNo (x0 (ix2 j 0))) k) := by
  unfold val_main_v43
  exact (ConcatAt.pair_left (val_main_v8 (F := Ideal) x0 x2) (val_main_v26 (F := Ideal) x0 x3)
    _ (lidx_main_v44 (ix2 j c) (lo k)) j k rfl rfl).trans (v8_at x0 x2 j k)

/-- The right half of the second joined row is the second target's row. -/
theorem v43_hi (x0 : (⟨S65536x3, .i32⟩ : BufTy).Contents (Elt Ideal)) (x2 x3 : (⟨S10000x512, .f32⟩ : BufTy).Contents (Elt Ideal)) (j : Fin 65536) (c : Fin 128) (k : Fin 512) :
    val_main_v43 (F := Ideal) x0 x2 x3 (lidx_main_v44 (ix2 j c) (hi k)) = x3 (ix2 (rowNo (x0 (ix2 j 2))) k) := by
  unfold val_main_v43
  exact (ConcatAt.pair_right (val_main_v8 (F := Ideal) x0 x2) (val_main_v26 (F := Ideal) x0 x3)
    _ (lidx_main_v44 (ix2 j c) (hi k)) j k rfl rfl).trans (v26_at x0 x3 j k)

/-- The first layer's contraction of the second joined row. -/
theorem v44_at (x0 : (⟨S65536x3, .i32⟩ : BufTy).Contents (Elt Ideal)) (x2 x3 : (⟨S10000x512, .f32⟩ : BufTy).Contents (Elt Ideal)) (x4 : (⟨S1024x128, .f32⟩ : BufTy).Contents (Elt Ideal)) (j : Fin 65536) (c : Fin 128) :
    val_main_v44 (F := Ideal) x0 x2 x3 x4 (ix2 j c)
      = ∑ k : Fin 512, x2 (ix2 (rowNo (x0 (ix2 j 0))) k) * x4 (ix2 (lo k) c)
        + ∑ k : Fin 512, x3 (ix2 (rowNo (x0 (ix2 j 2))) k) * x4 (ix2 (hi k) c) := by
  refine (val_main_v44_apply x0 x2 x3 x4 (ix2 j c)).trans ?_
  exact joined_contraction (fun k => val_main_v43 (F := Ideal) x0 x2 x3 (lidx_main_v44 (ix2 j c) k))
    (fun k => x4 (ridx_main_v44 (ix2 j c) k))
    (fun k => x2 (ix2 (rowNo (x0 (ix2 j 0))) k)) (fun k => x3 (ix2 (rowNo (x0 (ix2 j 2))) k))
    (fun k => x4 (ix2 (lo k) c)) (fun k => x4 (ix2 (hi k) c))
    (fun k => v43_lo x0 x2 x3 j c k) (fun k => v43_hi x0 x2 x3 j c k)
    (fun k => congrArg x4 (ridx44 j c (lo k))) (fun k => congrArg x4 (ridx44 j c (hi k)))

/-- The first hidden layer of the second affinity. -/
theorem v48_at (x0 : (⟨S65536x3, .i32⟩ : BufTy).Contents (Elt Ideal)) (x2 x3 : (⟨S10000x512, .f32⟩ : BufTy).Contents (Elt Ideal)) (x4 : (⟨S1024x128, .f32⟩ : BufTy).Contents (Elt Ideal)) (x5 : (⟨S128, .f32⟩ : BufTy).Contents (Elt Ideal)) (j : Fin 65536) (c : Fin 128) :
    val_main_v48 (F := Ideal) x0 x2 x3 x4 x5 (ix2 j c)
      = hidden1 (Ideal.ofBits .f32 0x00000000#32) (fun k => x2 (ix2 (rowNo (x0 (ix2 j 0))) k))
          (fun k => x3 (ix2 (rowNo (x0 (ix2 j 2))) k)) (fun k n => x4 (ix2 (lo k) n)) (fun k n => x4 (ix2 (hi k) n))
          (fun n => x5 (ix1 n)) c := by
  rw [val_main_v48_apply, val_main_v47_apply, v44_at, val_main_v46_apply, val_main_v45_apply, val_main_call2_v0_apply,
    val_main_call2_cst_apply, bias1_idx']
  rfl

/-- The second hidden layer of the second affinity. -/
theorem v53_at (x0 : (⟨S65536x3, .i32⟩ : BufTy).Contents (Elt Ideal)) (x2 x3 : (⟨S10000x512, .f32⟩ : BufTy).Contents (Elt Ideal)) (x4 : (⟨S1024x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (j : Fin 65536) (c : Fin 64) :
    val_main_v53 (F := Ideal) x0 x2 x3 x4 x5 x6 x7 (ix2 j c)
      = hidden2 (Ideal.ofBits .f32 0x00000000#32)
          (hidden1 (Ideal.ofBits .f32 0x00000000#32) (fun k => x2 (ix2 (rowNo (x0 (ix2 j 0))) k))
            (fun k => x3 (ix2 (rowNo (x0 (ix2 j 2))) k)) (fun k n => x4 (ix2 (lo k) n)) (fun k n => x4 (ix2 (hi k) n))
            (fun n => x5 (ix1 n)))
          (fun k n => x6 (ix2 k n)) (fun n => x7 (ix1 n)) c := by
  rw [val_main_v53_apply, val_main_v52_apply, val_main_v49_apply, val_main_v51_apply, val_main_v50_apply,
    val_main_call3_v0_apply, val_main_call3_cst_apply, bias2_idx']
  rw [Finset.sum_congr rfl fun k _ => congrArg₂ (· * ·)
    ((congrArg (val_main_v48 (F := Ideal) x0 x2 x3 x4 x5) (lidx49 j c k)).trans (v48_at x0 x2 x3 x4 x5 j k))
    (congrArg x6 (ridx49 j c k))]
  rfl

/-- The second score before flattening. -/
theorem v57_at (x0 : (⟨S65536x3, .i32⟩ : BufTy).Contents (Elt Ideal)) (x2 x3 : (⟨S10000x512, .f32⟩ : BufTy).Contents (Elt Ideal)) (x4 : (⟨S1024x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (j : Fin 65536) (c : Fin 1) :
    val_main_v57 (F := Ideal) x0 x2 x3 x4 x5 x6 x7 x8 x9 (ix2 j c)
      = affinity (Ideal.ofBits .f32 0x00000000#32) (fun k => x2 (ix2 (rowNo (x0 (ix2 j 0))) k))
          (fun k => x3 (ix2 (rowNo (x0 (ix2 j 2))) k)) (fun k n => x4 (ix2 (lo k) n)) (fun k n => x4 (ix2 (hi k) n))
          (fun n => x5 (ix1 n)) (fun k n => x6 (ix2 k n)) (fun n => x7 (ix1 n)) (fun k => x8 (ix2 k 0)) (x9 (ix1 0)) := by
  obtain rfl : c = 0 := Subsingleton.elim _ _
  rw [val_main_v57_apply, val_main_v54_apply, val_main_v56_apply, val_main_v55_apply, bias3_idx']
  rw [Finset.sum_congr rfl fun k _ => congrArg₂ (· * ·)
    ((congrArg (val_main_v53 (F := Ideal) x0 x2 x3 x4 x5 x6 x7) (lidx54 j 0 k)).trans (v53_at x0 x2 x3 x4 x5 x6 x7 j k))
    (congrArg x8 (ridx54 j 0 k))]
  rfl

/-- The second affinity of pair row `j`. -/
theorem v58_at (x0 : (⟨S65536x3, .i32⟩ : BufTy).Contents (Elt Ideal)) (x2 x3 : (⟨S10000x512, .f32⟩ : BufTy).Contents (Elt Ideal)) (x4 : (⟨S1024x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (j : Fin 65536) :
    val_main_v58 (F := Ideal) x0 x2 x3 x4 x5 x6 x7 x8 x9 (ix1 j)
      = affinity (Ideal.ofBits .f32 0x00000000#32) (fun k => x2 (ix2 (rowNo (x0 (ix2 j 0))) k))
          (fun k => x3 (ix2 (rowNo (x0 (ix2 j 2))) k)) (fun k n => x4 (ix2 (lo k) n)) (fun k n => x4 (ix2 (hi k) n))
          (fun n => x5 (ix1 n)) (fun k n => x6 (ix2 k n)) (fun n => x7 (ix1 n)) (fun k => x8 (ix2 k 0)) (x9 (ix1 0)) := by
  rw [val_main_v58_apply, flat_idx']
  exact v57_at x0 x2 x3 x4 x5 x6 x7 x8 x9 j 0

/-! ## The loss term of one pair -/

/-- THE REFERENCE'S LOSS TERM OF PAIR ROW `j` (first pair array): the squared difference of the two affinities. -/
theorem pos_apply (x0 : (⟨S65536x3, .i32⟩ : BufTy).Contents (Elt Ideal)) (x2 x3 : (⟨S10000x512, .f32⟩ : BufTy).Contents (Elt Ideal)) (x4 : (⟨S1024x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (j : Fin 65536) :
    val_main_v60 (F := Ideal) x0 x2 x3 x4 x5 x6 x7 x8 x9 (ix1 j)
      = pairRow (Ideal.ofBits .f32 0x00000000#32) x2 x3 x4 x5 x6 x7 x8 x9 (x0 (ix2 j 0)) (x0 (ix2 j 1)) (x0 (ix2 j 2)) := by
  rw [val_main_v60_apply, val_main_v59_apply, v42_at, v58_at]
  rfl

/-- The second half of the reference is the same chain of operations applied to the second pair array. -/
theorem v123_eq (x1 : (⟨S65536x3, .i32⟩ : BufTy).Contents (Elt Ideal)) (x2 x3 : (⟨S10000x512, .f32⟩ : BufTy).Contents (Elt Ideal)) (x4 : (⟨S1024x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) :
    val_main_v123 (F := Ideal) x1 x2 x3 x4 x5 x6 x7 x8 x9 = val_main_v60 (F := Ideal) x1 x2 x3 x4 x5 x6 x7 x8 x9 := rfl

/-- THE REFERENCE'S LOSS TERM OF PAIR ROW `j` (second pair array). -/
theorem neg_apply (x1 : (⟨S65536x3, .i32⟩ : BufTy).Contents (Elt Ideal)) (x2 x3 : (⟨S10000x512, .f32⟩ : BufTy).Contents (Elt Ideal)) (x4 : (⟨S1024x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (j : Fin 65536) :
    val_main_v123 (F := Ideal) x1 x2 x3 x4 x5 x6 x7 x8 x9 (ix1 j)
      = pairRow (Ideal.ofBits .f32 0x00000000#32) x2 x3 x4 x5 x6 x7 x8 x9 (x1 (ix2 j 0)) (x1 (ix2 j 1)) (x1 (ix2 j 2)) :=
  (congrFun (v123_eq x1 x2 x3 x4 x5 x6 x7 x8 x9) (ix1 j)).trans (pos_apply x1 x2 x3 x4 x5 x6 x7 x8 x9 j)

end Cert.Proof.RefScore

end
-- ==== Proof.Bridge.lean ====
/-
  The two programs' results are equal.

  Row `j` of the kernel's column is the loss term of positive pair `j`, and row `65536 + j` that of negative pair
  `j`: the region finds, at those rows of its three gathered arrays, the table rows that pair's three indices name,
  and finds the first layer's weights as the two halves of the weight matrix — exactly the arrays the reference's
  loss term of the pair is a function of. So the first half of the column is the reference's array of positive loss
  terms and the second half its array of negative loss terms, entry by entry; both programs then take the same
  mean-of-each-and-subtract of the two arrays.
-/
import proofs.«179089_j49606872269326_2_alg».proof.Proof.Gen.KernelIdeal.Frame
import proofs.«179089_j49606872269326_2_alg».proof.Proof.Gen.ReferenceIdeal.Read
import proofs.«179089_j49606872269326_2_alg».proof.Proof.Spec
import proofs.«179089_j49606872269326_2_alg».proof.Proof.HostBefore
import proofs.«179089_j49606872269326_2_alg».proof.Proof.HostAfter
import proofs.«179089_j49606872269326_2_alg».proof.Proof.OutputArray
import proofs.«179089_j49606872269326_2_alg».proof.Proof.RefScore
import proofs.«179089_j49606872269326_2_alg».proof.Proof.KernelRun

noncomputable section

namespace Cert.Proof.Bridge

open Idealize.ShloMosaic Idealize.ShloMosaic.TcCoe Idealize.SL.Sem Idealize.ShloMosaic.ValueIdx
open Cert.KernelIdeal Cert.KernelIdeal.Gen Cert.Proof.PairScore

variable (m : (ℓ : Loc nD τ sig) → Buf (Elt Ideal) ℓ) (c : Dev nD)

/-- The row an index of the column names, for an index given by its row. -/
theorem rowOfIdx_ix2 (R : Fin 131072) : OutputArray.rowOfIdx (ix2 R (0 : Fin 1)) = R := rfl

/-- Row `j` of the column is the loss term of positive pair `j`. -/
theorem column_upper (j : Fin 65536) :
    OutputArray.column m c (ix2 (⟨j.val, by omega⟩ : Fin 131072) (0 : Fin 1))
      = pairRow (Ideal.ofBits .f32 0x00000000#32) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          ((m ((c.tc : Thread nD τ).loc main_arg0)) (ix2 j (0 : Fin 3))) ((m ((c.tc : Thread nD τ).loc main_arg0)) (ix2 j (1 : Fin 3))) ((m ((c.tc : Thread nD τ).loc main_arg0)) (ix2 j (2 : Fin 3))) := by
  show sqdiff _ _ _ _ _ _ _ _ _ _ _ = sqdiff _ _ _ _ _ _ _ _ _ _ _
  simp only [rowOfIdx_ix2, HostBefore.drug_upper m c j, HostBefore.target1_upper m c j, HostBefore.target2_upper m c j,
    HostBefore.w1a_apply m c, HostBefore.w1b_apply m c, HostBefore.b1_apply m c, HostBefore.w2_apply m c,
    HostBefore.b2_apply m c, HostBefore.w3_apply m c, HostBefore.b3_apply m c]

/-- Row `65536 + j` of the column is the loss term of negative pair `j`. -/
theorem column_lower (j : Fin 65536) :
    OutputArray.column m c (ix2 (⟨65536 + j.val, by omega⟩ : Fin 131072) (0 : Fin 1))
      = pairRow (Ideal.ofBits .f32 0x00000000#32) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          ((m ((c.tc : Thread nD τ).loc main_arg1)) (ix2 j (0 : Fin 3))) ((m ((c.tc : Thread nD τ).loc main_arg1)) (ix2 j (1 : Fin 3))) ((m ((c.tc : Thread nD τ).loc main_arg1)) (ix2 j (2 : Fin 3))) := by
  show sqdiff _ _ _ _ _ _ _ _ _ _ _ = sqdiff _ _ _ _ _ _ _ _ _ _ _
  simp only [rowOfIdx_ix2, HostBefore.drug_lower m c j, HostBefore.target1_lower m c j, HostBefore.target2_lower m c j,
    HostBefore.w1a_apply m c, HostBefore.w1b_apply m c, HostBefore.b1_apply m c, HostBefore.w2_apply m c,
    HostBefore.b2_apply m c, HostBefore.w3_apply m c, HostBefore.b3_apply m c]

/-- The first half of the column is the reference's array of positive loss terms. -/
theorem upper_eq :
    HostAfter.upperHalf (OutputArray.column m c)
      = Cert.ReferenceIdeal.Read.val_main_v60 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨j, rfl⟩ : ∃ j : Fin 65536, i = ix1 j := ⟨i 0, eq_ix1 i⟩
  rw [HostAfter.upperHalf_apply, RefScore.pos_apply]
  exact column_upper m c j

/-- The second half of the column is the reference's array of negative loss terms. -/
theorem lower_eq :
    HostAfter.lowerHalf (OutputArray.column m c)
      = Cert.ReferenceIdeal.Read.val_main_v123 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨j, rfl⟩ : ∃ j : Fin 65536, i = ix1 j := ⟨i 0, eq_ix1 i⟩
  rw [HostAfter.lowerHalf_apply, RefScore.neg_apply]
  exact column_lower m c j

/-- The reference's result is the same mean-of-each-and-subtract of its two arrays of loss terms. -/
theorem ref_result (x0 x1 : (⟨Cert.ReferenceIdeal.S65536x3, .i32⟩ : BufTy).Contents (Elt Ideal))
    (x2 x3 : (⟨Cert.ReferenceIdeal.S10000x512, .f32⟩ : BufTy).Contents (Elt Ideal))
    (x4 : (⟨Cert.ReferenceIdeal.S1024x128, .f32⟩ : BufTy).Contents (Elt Ideal)) (x5 : (⟨Cert.ReferenceIdeal.S128, .f32⟩ : BufTy).Contents (Elt Ideal))
    (x6 : (⟨Cert.ReferenceIdeal.S128x64, .f32⟩ : BufTy).Contents (Elt Ideal)) (x7 : (⟨Cert.ReferenceIdeal.S64, .f32⟩ : BufTy).Contents (Elt Ideal))
    (x8 : (⟨Cert.ReferenceIdeal.S64x1, .f32⟩ : BufTy).Contents (Elt Ideal)) (x9 : (⟨Cert.ReferenceIdeal.S1, .f32⟩ : BufTy).Contents (Elt Ideal)) :
    Cert.ReferenceIdeal.Read.val_main_v126 (F := Ideal) x0 x1 x2 x3 x4 x5 x6 x7 x8 x9
      = HostAfter.meanDiff (Cert.ReferenceIdeal.Read.val_main_v60 (F := Ideal) x0 x2 x3 x4 x5 x6 x7 x8 x9)
          (Cert.ReferenceIdeal.Read.val_main_v123 (F := Ideal) x1 x2 x3 x4 x5 x6 x7 x8 x9) := rfl

/-- THE TWO RESULTS: the kernel's result buffer holds the reference's result term of the same arguments. -/
theorem result_eq :
    KernelRun.result m c = Cert.ReferenceIdeal.Read.val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold KernelRun.result
  rw [upper_eq, lower_eq]
  exact (ref_result _ _ _ _ _ _ _ _ _ _).symm

end Cert.Proof.Bridge

end
-- ==== Proof.lean ====
/-
  The pair-ranking loss: a kernel that scores every (drug, target) pair row with a three-layer perceptron, against the
  same computation written with array operations.

  For each of 65536 positive and 65536 negative pair rows (a drug index and two target indices into embedding tables
  of 10000 rows by 512) both programs gather the drug's row and the two targets' rows, send (drug, target) through
  three layers — 1024 → 128 → 64 → 1, a rectifier after the first two — once per target, and take the squared
  difference of the two scores; the result is the mean over the positive pairs minus the mean over the negative
  pairs. The kernel keeps all 131072 rows in one column, computes the first layer as the drug's row against the upper
  half of the weight matrix plus the target's row against the lower half, and shares the drug's product between the
  two targets; the reference joins the two rows into one of 1024 entries and contracts it with the whole matrix.

  On the extended reals the two are the same function of the arguments. Changes of float format are the identity;
  a matrix product into a zero accumulator is the textbook sum; a sum over 1024 consecutive terms is the sum of its
  first 512 and its last 512 terms, in any commutative monoid — the one law that joins the two sides, and it needs
  no finiteness, so the precondition is never opened. Every other operation acts entry by entry, and both programs
  end with the same sums, quotients and difference of two arrays that are equal entry by entry.

  The three frames are the generated frame certificates of the two kernel programs and the generated run of the
  reference with its result dropped; the kernel has no recorded rewrite, so there is nothing to preserve.
-/
import proofs.«179089_j49606872269326_2_alg».proof.Defs
import proofs.«179089_j49606872269326_2_alg».proof.Proof.Gen.Kernel
import proofs.«179089_j49606872269326_2_alg».proof.Proof.Gen.Kernel.Skeleton
import proofs.«179089_j49606872269326_2_alg».proof.Proof.Gen.Kernel.Launch
import proofs.«179089_j49606872269326_2_alg».proof.Proof.Gen.Kernel.Points
import proofs.«179089_j49606872269326_2_alg».proof.Proof.Gen.Kernel.Frame
import proofs.«179089_j49606872269326_2_alg».proof.Proof.Gen.KernelIdeal
import proofs.«179089_j49606872269326_2_alg».proof.Proof.Gen.KernelIdeal.Skeleton
import proofs.«179089_j49606872269326_2_alg».proof.Proof.Gen.KernelIdeal.Launch
import proofs.«179089_j49606872269326_2_alg».proof.Proof.Gen.KernelIdeal.Points
import proofs.«179089_j49606872269326_2_alg».proof.Proof.Gen.KernelIdeal.Frame
import proofs.«179089_j49606872269326_2_alg».proof.Proof.Gen.ReferenceIdeal
import proofs.«179089_j49606872269326_2_alg».proof.Proof.Gen.ReferenceIdeal.Run
import proofs.«179089_j49606872269326_2_alg».proof.Proof.Gen.ReferenceIdeal.Read
import proofs.«179089_j49606872269326_2_alg».proof.Proof.Gen.Pre_finite_inputs
import proofs.«179089_j49606872269326_2_alg».proof.Proof.KernelRun
import proofs.«179089_j49606872269326_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs run, the kernel's result buffer and the
    reference's ending at the same extended real. -/
theorem algebraic : Cert.algebraic_KernelIdeal_ReferenceIdeal := by
  intro m ρ m' ρ' _ hagree
  refine ⟨fun c => KernelRun.result m c, KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v126_eq, h0, h1, h2, h3, h4, h5, h6, h7, h8, h9]
  exact (Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
